-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128 : Shape := ⟨1, ![128]⟩
abbrev S128x128 : Shape := ⟨2, ![128, 128]⟩
abbrev S5000x128 : Shape := ⟨2, ![5000, 128]⟩
abbrev S5000 : Shape := ⟨1, ![5000]⟩
abbrev S5000x1 : Shape := ⟨2, ![5000, 1]⟩
abbrev S1x128 : Shape := ⟨2, ![1, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 66
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128, .f32⟩
  | .local _ .vmem, ⟨3, _⟩ => ⟨S128, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128 : Shape := ⟨1, ![128]⟩
abbrev S128x128 : Shape := ⟨2, ![128, 128]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x128 : Shape := ⟨2, ![1700000, 128]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S_, .f32⟩
  | .hbm, ⟨7, _⟩ => ⟨S100000, .f32⟩
  | .hbm, ⟨8, _⟩ => ⟨S100000x1, .f32⟩
  | .hbm, ⟨9, _⟩ => ⟨S_, .f32⟩
  | .hbm, ⟨10, _⟩ => ⟨S100000x1, .f32⟩
  | .hbm, ⟨11, _⟩ => ⟨S100000x1, .f32⟩
  | .hbm, ⟨12, _⟩ => ⟨S100000x128, .f32⟩
  | .hbm, ⟨13, _⟩ => ⟨S100000x128, .f32⟩
  | .hbm, ⟨14, _⟩ => ⟨S100000x128, .f32⟩
  | .hbm, ⟨15, _⟩ => ⟨S_, .f32⟩
  | .hbm, ⟨16, _⟩ => ⟨S100000, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000, .i32⟩
  | .hbm, ⟨40, _⟩ => ⟨S1x1600000, .i32⟩
  | .hbm, ⟨41, _⟩ => ⟨S1600000, .i32⟩
  | .hbm, ⟨42, _⟩ => ⟨S1700000, .i32⟩
  | .hbm, ⟨43, _⟩ => ⟨S1x1600000, .i32⟩
  | .hbm, ⟨44, _⟩ => ⟨S1600000, .i32⟩
  | .hbm, ⟨45, _⟩ => ⟨S1700000, .i32⟩
  | .hbm, ⟨46, _⟩ => ⟨S_, .f32⟩
  | .hbm, ⟨47, _⟩ => ⟨S1700000, .f32⟩
  | .hbm, ⟨48, _⟩ => ⟨S_, .f32⟩
  | .hbm, ⟨49, _⟩ => ⟨S100000, .f32⟩
  | .hbm, ⟨50, _⟩ => ⟨S1700000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .i1⟩
  | .hbm, ⟨55, _⟩ => ⟨S100000, .f32⟩
  | .hbm, ⟨56, _⟩ => ⟨S_, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000, .f32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000x128, .f32⟩
  | .hbm, ⟨88, _⟩ => ⟨S1700000x1, .f32⟩
  | .hbm, ⟨89, _⟩ => ⟨S1700000x128, .f32⟩
  | .hbm, ⟨90, _⟩ => ⟨S1700000x128, .f32⟩
  | .hbm, ⟨91, _⟩ => ⟨S_, .f32⟩
  | .hbm, ⟨92, _⟩ => ⟨S100000x128, .f32⟩
  | .hbm, ⟨93, _⟩ => ⟨S1700000x1, .i32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_v40 : Ref sig .tc := ⟨.hbm, 59, rfl⟩
abbrev main_c : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.ReferenceStages.lean ====
/-
  The reference, stage by stage, as functions of its inputs on the extended reals.

  THE DENSE STAGE works on the whole 100000 × 128 matrix `x` at once: the lane sum of every row, kept as a column and
  divided by 128 (`meanCol`); the column repeated across the lanes and subtracted (`devs`); the lane sums of the
  squared deviations, a column divided by 128, plus ε, under the inverse square root (`scaleCol`); the deviations times
  that column, times the lane weights, plus the lane offsets, cut off below at zero (`acts`); and the product with the
  128 × 128 matrix (`dense`).

  THE SPARSE STAGE takes any 100000 × 128 array `h` in the place of that product. The edge list `e` gives 1600000
  (source, target) pairs, to which one loop per node is appended (`sources`, `targets`: 1700000 row numbers each; a
  negative row number is read from the end, `wrapped`). The number of arrivals at a node is a sum of ones over the
  targets (`degreeOf`); its inverse square root, or 0 where nothing arrives (`invSqrtDeg`), read at an edge's two ends and
  multiplied, is the edge's factor (`edgeFactorOf`). Row `source` of `h` times the edge's factor is summed into row
  `target` of an array of zeros, and the lane offsets `b` are added to every row (`aggregate`).

  The reference's result is `aggregate (dense x g bt w) e b`; nothing below looks inside the sparse stage.
-/
import proofs.«146687_j10763188043961_1_alg».proof.Proof.Gen.ReferenceIdeal
import Idealize.ShloMosaic.PureOps.Ideal

noncomputable section

namespace RefStages

open Cert.ReferenceIdeal Cert.ReferenceIdeal.Gen Idealize.ShloMosaic

/-! ## The dense stage -/

variable (x : FVec Ideal S100000x128 .f32) (g bt : FVec Ideal S128 .f32)
  (w : FVec Ideal S128x128 .f32)

/-- The column of row means. -/
def meanCol : FVec Ideal S100000x1 .f32 :=
  Host.divf (F := Ideal)
    (broadcastInDim S100000x1 ![0] bcast_S100000_S100000x1_0
      (Host.reduceAdd (F := Ideal) x (constant (F := Ideal) S_ .f32 0x00000000#32) reducesTo_S100000x128_S100000_d1 h_S_))
    (broadcastInDim S100000x1 ![] bcast_S_S100000x1 (constant (F := Ideal) S_ .f32 0x43000000#32))

/-- The deviations from the row means. -/
def devs : FVec Ideal S100000x128 .f32 :=
  subf (F := Ideal) x (broadcastInDim S100000x128 ![0, 1] bcast_S100000x1_S100000x128_0_1 (meanCol x))

/-- The column of scales (v_r + ε)^(−1/2). -/
def scaleCol : FVec Ideal S100000x1 .f32 :=
  Host.rsqrt (F := Ideal) (addf (F := Ideal)
    (Host.divf (F := Ideal)
      (broadcastInDim S100000x1 ![0] bcast_S100000_S100000x1_0
        (Host.reduceAdd (F := Ideal) (mulf (F := Ideal) (devs x) (devs x)) (constant (F := Ideal) S_ .f32 0x00000000#32)
          reducesTo_S100000x128_S100000_d1 h_S_))
      (broadcastInDim S100000x1 ![] bcast_S_S100000x1 (constant (F := Ideal) S_ .f32 0x43000000#32)))
    (broadcastInDim S100000x1 ![] bcast_S_S100000x1 (constant (F := Ideal) S_ .f32 0x3727C5AC#32)))

/-- The matrix normalised, weighted and shifted. -/
def affine : FVec Ideal S100000x128 .f32 :=
  addf (F := Ideal)
    (mulf (F := Ideal)
      (mulf (F := Ideal) (devs x) (broadcastInDim S100000x128 ![0, 1] bcast_S100000x1_S100000x128_0_1 (scaleCol x)))
      (broadcastInDim S100000x128 ![0, 1] bcast_S1x128_S100000x128_0_1 (broadcastInDim S1x128 ![1] bcast_S128_S1x128_1 g)))
    (broadcastInDim S100000x128 ![0, 1] bcast_S1x128_S100000x128_0_1 (broadcastInDim S1x128 ![1] bcast_S128_S1x128_1 bt))

/-- An array cut off below at zero: the cut-off the reference makes through a small function of its own. -/
def cutoff (a : FVec Ideal S100000x128 .f32) : FVec Ideal S100000x128 .f32 :=
  maximumf (F := Ideal) a (broadcastInDim S100000x128 ![] bcast_S_S100000x128 (constant (F := Ideal) S_ .f32 0x00000000#32))

/-- The matrix normalised, weighted, shifted and cut off below at zero. -/
def acts : FVec Ideal S100000x128 .f32 := cutoff (affine x g bt)

/-- An array times `w`. -/
def times (a : FVec Ideal S100000x128 .f32) : FVec Ideal S100000x128 .f32 :=
  Host.dotGeneral (F := Ideal) dot_S100000x128_S128x128_S100000x128_1_0_0_1_n_n none a w

/-- The dense stage: the cut-off matrix times `w`. -/
def dense : FVec Ideal S100000x128 .f32 := times w (acts x g bt)

/-! ## The sparse stage -/

variable (e : IVec S2x1600000 32) (b : FVec Ideal S128 .f32)

/-- Row 0 of the edge list followed by one loop per node: where each contribution comes from. -/
def sources : IVec S1700000 32 :=
  concatenate S1700000 0
    [⟨S1600000, (shapeCast _ (extractStridedSlice S1x1600000 ![0, 0] e slices_S2x1600000_S1x1600000_0_0) shapeCasts_S1x1600000_S1600000)⟩,
     ⟨S100000, (iotaInDim S100000 32 0)⟩] concatenates_S1600000_S100000_S1700000_d0

/-- Row 1 of the edge list followed by one loop per node: where each contribution goes. -/
def targets : IVec S1700000 32 :=
  concatenate S1700000 0
    [⟨S1600000, (shapeCast _ (extractStridedSlice S1x1600000 ![1, 0] e slices_S2x1600000_S1x1600000_1_0) shapeCasts_S1x1600000_S1600000)⟩,
     ⟨S100000, (iotaInDim S100000 32 0)⟩] concatenates_S1600000_S100000_S1700000_d0

/-- Row numbers as a column, a negative one counted from the end. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- How many contributions arrive at each node, given where they go: a sum of ones. -/
def degreeOf (t : IVec S1700000 32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 t)
    (broadcastInDim S1700000 ![] bcast_S_S1700000 (constant (F := Ideal) S_ .f32 0x3F800000#32))

/-- Where something arrives. -/
def arrives : IVec S100000 1 :=
  cmpf (F := Ideal) .ogt (degreeOf (targets e)) (broadcastInDim S100000 ![] bcast_S_S100000 (constant (F := Ideal) S_ .f32 0x00000000#32))

/-- deg^(−1/2), taken everywhere. -/
def rsqrtDeg : FVec Ideal S100000 .f32 := Host.rsqrt (F := Ideal) (degreeOf (targets e))

/-- One array where a condition holds and a constant elsewhere: the choice the programs make through a small function of
    their own. -/
def chooseOr (c : IVec S100000 1) (r : FVec Ideal S100000 .f32) (z : FVec Ideal S_ .f32) : FVec Ideal S100000 .f32 :=
  select c r (broadcastInDim S100000 ![] bcast_S_S100000 (id z))

/-- deg^(−1/2) where something arrives, 0 elsewhere. -/
def invSqrtDeg : FVec Ideal S100000 .f32 :=
  chooseOr (arrives e) (rsqrtDeg e) (constant (F := Ideal) S_ .f32 0x00000000#32)

/-- The factor of each contribution, from the per-node values `d`: d(source) · d(target). -/
def edgeFactorOf (d : FVec Ideal S100000 .f32) (s t : IVec S1700000 32) : FVec Ideal S1700000 .f32 :=
  mulf (F := Ideal)
    (Host.gather gather_S100000_S1700000x1_S1700000_n_0_n_n_0_1_1 d (wrapped s))
    (Host.gather gather_S100000_S1700000x1_S1700000_n_0_n_n_0_1_1 d (wrapped t))

/-- Rows of `h` read at the sources, each times its factor, summed into the rows of the targets, plus the offsets. -/
def aggregateOf (h : FVec Ideal S100000x128 .f32) (d : FVec Ideal S100000 .f32) (s t : IVec S1700000 32) (b : FVec Ideal S128 .f32) :
    FVec Ideal S100000x128 .f32 :=
  addf (F := Ideal)
    (Host.scatterAdd (F := Ideal) scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 t)
      (mulf (F := Ideal)
        (Host.gather gather_S100000x128_S1700000x1_S1700000x128_1_0_n_n_0_1_1128 h (wrapped s))
        (broadcastInDim S1700000x128 ![0, 1] bcast_S1700000x1_S1700000x128_0_1
          (broadcastInDim S1700000x1 ![0] bcast_S1700000_S1700000x1_0 (edgeFactorOf d s t)))))
    (broadcastInDim S100000x128 ![0, 1] bcast_S1x128_S100000x128_0_1 (broadcastInDim S1x128 ![1] bcast_S128_S1x128_1 b))

/-- THE SPARSE STAGE of an array `h`, for the edge list `e` and the offsets `b`. -/
def aggregate (h : FVec Ideal S100000x128 .f32) : FVec Ideal S100000x128 .f32 :=
  aggregateOf h (invSqrtDeg e) (sources e) (targets e) b

end RefStages

end
-- ==== Proof.LibAfterAppend.lean ====
/-
  Reading buffers back through two stretches of whole-array operations.

  `StableHlo.after ops V` is what every buffer of a device holds after the operations `ops`, run in order from the
  contents `V`. Running one stretch and then another is running them in a row: the contents after `l₁ ++ l₂` are the
  contents after `l₂`, started from the contents after `l₁`. This lets a long straight-line program be read back one
  stretch at a time, each over contents that are no further specified.
-/
import Idealize.ShloMosaic.Lib.StableHlo.Run

namespace AfterAppend

open Idealize.ShloMosaic Idealize.ShloMosaic.StableHlo

variable {τ : Topo} {sig : RefSig} {Val : EltTy → Type}

/-- The contents after two stretches in a row are the contents after the second, from those after the first. -/
theorem after_append : ∀ (l₁ l₂ : List (HloOp τ sig Val)) (V : Valuation τ sig Val),
    after (l₁ ++ l₂) V = after l₂ (after l₁ V)
  | [], _, _ => rfl
  | op :: l₁, l₂, V => by
    rw [List.cons_append, after_cons, after_cons]
    exact after_append l₁ l₂ _

end AfterAppend
-- ==== Proof.ReferenceRun.lean ====
/-
  The reference runs, and ends at the sparse stage applied to its own dense stage.

  The reference is a straight line of 92 whole-array operations on one device. Listed in order (`ops`), they are the
  program (`main_eq`); none of them touches a scoped buffer or a semaphore, each reads and writes buffers of the device
  only (`ops_sub`), so every weakly fair execution runs them one after the other and terminates, each buffer ending at
  what the operations before it computed (`StableHlo.run_seq`). That is read back in six stretches, each from contents
  that are no further specified: 29 operations normalise, weight and shift the matrix; 3 (a small function of the
  program's own) cut it off at zero; 1 multiplies by the 128 × 128 matrix; 18 build, from the edge list, the source and
  target rows, where something arrives and deg^(−1/2); 3 (a second small function) choose between deg^(−1/2) and 0; and
  38 gather, scale, sum and shift. Each stretch leaves in its result buffers a stage of `RefStages` of what it started
  from, and writes none of the buffers a later stretch still needs from before it; in a row
  (`AfterAppend.after_append`) they leave `aggregate e b (dense x g bt w)` in the result buffer (`read_back`). The six
  inputs are never written.
-/
import proofs.«146687_j10763188043961_1_alg».proof.Proof.ReferenceStages
import proofs.«146687_j10763188043961_1_alg».proof.Proof.LibAfterAppend
import Idealize.ShloMosaic.Lib.StableHlo.Run

noncomputable section

namespace RefRun

open Cert.ReferenceIdeal Cert.ReferenceIdeal.Gen Idealize.ShloMosaic Idealize.ShloMosaic.TcCoe Idealize.SL.Sem Idealize.ShloMosaic.StableHlo
open RefStages

variable {F : FTy → Type} [FloatOps F]

/-- The program's 92 operations, in order; the two small functions it calls (the cut-off at zero, the choice between
    deg^(−1/2) and 0) stand in their calls' places. -/
abbrev ops : List (HloOp τ sig (Elt F)) :=
  [ nullary main_cst (constant S_ .f32 0x00000000#32),
    binary main_arg0 main_cst main_v0 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v0 main_v1 (broadcastInDim S100000x1 ![0] bcast_S100000_S100000x1_0 : (⟨S100000, .f32⟩ : BufTy).Contents (Elt F) → (⟨S100000x1, .f32⟩ : BufTy).Contents (Elt F)),
    nullary main_cst_0 (constant S_ .f32 0x43000000#32),
    unary main_cst_0 main_v2 (broadcastInDim S100000x1 ![] bcast_S_S100000x1 : (⟨S_, .f32⟩ : BufTy).Contents (Elt F) → (⟨S100000x1, .f32⟩ : BufTy).Contents (Elt F)),
    binary main_v1 main_v2 main_v3 (Host.divf : (⟨S100000x1, .f32⟩ : BufTy).Contents (Elt F) → (⟨S100000x1, .f32⟩ : BufTy).Contents (Elt F) → (⟨S100000x1, .f32⟩ : BufTy).Contents (Elt F)),
    unary main_v3 main_v4 (broadcastInDim S100000x128 ![0, 1] bcast_S100000x1_S100000x128_0_1 : (⟨S100000x1, .f32⟩ : BufTy).Contents (Elt F) → (⟨S100000x128, .f32⟩ : BufTy).Contents (Elt F)),
    binary main_arg0 main_v4 main_v5 (subf : (⟨S100000x128, .f32⟩ : BufTy).Contents (Elt F) → (⟨S100000x128, .f32⟩ : BufTy).Contents (Elt F) → (⟨S100000x128, .f32⟩ : BufTy).Contents (Elt F)),
    binary main_v5 main_v5 main_v6 (mulf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v6 main_cst_1 main_v7 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v7 main_v8 (broadcastInDim S100000x1 ![0] bcast_S100000_S100000x1_0 : (⟨S100000, .f32⟩ : BufTy).Contents (Elt F) → (⟨S100000x1, .f32⟩ : BufTy).Contents (Elt F)),
    nullary main_cst_2 (constant S_ .f32 0x43000000#32),
    unary main_cst_2 main_v9 (broadcastInDim S100000x1 ![] bcast_S_S100000x1 : (⟨S_, .f32⟩ : BufTy).Contents (Elt F) → (⟨S100000x1, .f32⟩ : BufTy).Contents (Elt F)),
    binary main_v8 main_v9 main_v10 (Host.divf : (⟨S100000x1, .f32⟩ : BufTy).Contents (Elt F) → (⟨S100000x1, .f32⟩ : BufTy).Contents (Elt F) → (⟨S100000x1, .f32⟩ : BufTy).Contents (Elt F)),
    unary main_v3 main_v11 (broadcastInDim S100000x128 ![0, 1] bcast_S100000x1_S100000x128_0_1 : (⟨S100000x1, .f32⟩ : BufTy).Contents (Elt F) → (⟨S100000x128, .f32⟩ : BufTy).Contents (Elt F)),
    binary main_arg0 main_v11 main_v12 (subf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x3727C5AC#32),
    unary main_cst_3 main_v13 (broadcastInDim S100000x1 ![] bcast_S_S100000x1 : (⟨S_, .f32⟩ : BufTy).Contents (Elt F) → (⟨S100000x1, .f32⟩ : BufTy).Contents (Elt F)),
    binary main_v10 main_v13 main_v14 (addf : (⟨S100000x1, .f32⟩ : BufTy).Contents (Elt F) → (⟨S100000x1, .f32⟩ : BufTy).Contents (Elt F) → (⟨S100000x1, .f32⟩ : BufTy).Contents (Elt F)),
    unary main_v14 main_v15 (Host.rsqrt : (⟨S100000x1, .f32⟩ : BufTy).Contents (Elt F) → (⟨S100000x1, .f32⟩ : BufTy).Contents (Elt F)),
    unary main_v15 main_v16 (broadcastInDim S100000x128 ![0, 1] bcast_S100000x1_S100000x128_0_1 : (⟨S100000x1, .f32⟩ : BufTy).Contents (Elt F) → (⟨S100000x128, .f32⟩ : BufTy).Contents (Elt F)),
    binary main_v12 main_v16 main_v17 (mulf : (⟨S100000x128, .f32⟩ : BufTy).Contents (Elt F) → (⟨S100000x128, .f32⟩ : BufTy).Contents (Elt F) → (⟨S100000x128, .f32⟩ : BufTy).Contents (Elt F)),
    unary main_arg2 main_v18 (broadcastInDim S1x128 ![1] bcast_S128_S1x128_1 : (⟨S128, .f32⟩ : BufTy).Contents (Elt F) → (⟨S1x128, .f32⟩ : BufTy).Contents (Elt F)),
    unary main_v18 main_v19 (broadcastInDim S100000x128 ![0, 1] bcast_S1x128_S100000x128_0_1 : (⟨S1x128, .f32⟩ : BufTy).Contents (Elt F) → (⟨S100000x128, .f32⟩ : BufTy).Contents (Elt F)),
    binary main_v17 main_v19 main_v20 (mulf : (⟨S100000x128, .f32⟩ : BufTy).Contents (Elt F) → (⟨S100000x128, .f32⟩ : BufTy).Contents (Elt F) → (⟨S100000x128, .f32⟩ : BufTy).Contents (Elt F)),
    unary main_arg3 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v23) (TRef.of (T := ⟨S100000x128, .f32⟩) main_call0_v0) (TRef.of (T := ⟨S100000x128, .f32⟩) main_v24) maximumf,
    binary main_v24 main_arg4 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v26 (iotaInDim S100000 32 0),
    unary main_arg1 main_v27 ((extractStridedSlice S1x1600000 ![0, 0] · slices_S2x1600000_S1x1600000_0_0) : (⟨S2x1600000, .i32⟩ : BufTy).Contents (Elt F) → (⟨S1x1600000, .i32⟩ : BufTy).Contents (Elt F)),
    reshape main_v27 main_v28 rfl shapeCasts_S1x1600000_S1600000,
    binary main_v28 main_v26 main_v29 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v30 ((extractStridedSlice S1x1600000 ![1, 0] · slices_S2x1600000_S1x1600000_1_0) : (⟨S2x1600000, .i32⟩ : BufTy).Contents (Elt F) → (⟨S1x1600000, .i32⟩ : BufTy).Contents (Elt F)),
    reshape main_v30 main_v31 rfl shapeCasts_S1x1600000_S1600000,
    binary main_v31 main_v26 main_v32 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_4 (constant S_ .f32 0x3F800000#32),
    unary main_cst_4 main_v33 (broadcastInDim S1700000 ![] bcast_S_S1700000 : (⟨S_, .f32⟩ : BufTy).Contents (Elt F) → (⟨S1700000, .f32⟩ : BufTy).Contents (Elt F)),
    nullary main_cst_5 (constant S_ .f32 0x00000000#32),
    unary main_cst_5 main_v34 (broadcastInDim S100000 ![] bcast_S_S100000 : (⟨S_, .f32⟩ : BufTy).Contents (Elt F) → (⟨S100000, .f32⟩ : BufTy).Contents (Elt F)),
    unary main_v32 main_v35 (broadcastInDim S1700000x1 ![0] bcast_S1700000_S1700000x1_0 : (⟨S1700000, .i32⟩ : BufTy).Contents (Elt F) → (⟨S1700000x1, .i32⟩ : BufTy).Contents (Elt F)),
    ternary main_v34 main_v35 main_v33 main_v36 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_6 (constant S_ .f32 0x00000000#32),
    unary main_cst_6 main_v37 (broadcastInDim S100000 ![] bcast_S_S100000 : (⟨S_, .f32⟩ : BufTy).Contents (Elt F) → (⟨S100000, .f32⟩ : BufTy).Contents (Elt F)),
    binary main_v36 main_v37 main_v38 (cmpf .ogt : (⟨S100000, .f32⟩ : BufTy).Contents (Elt F) → (⟨S100000, .f32⟩ : BufTy).Contents (Elt F) → (⟨S100000, .i1⟩ : BufTy).Contents (Elt F)),
    unary main_v36 main_v39 (Host.rsqrt : (⟨S100000, .f32⟩ : BufTy).Contents (Elt F) → (⟨S100000, .f32⟩ : BufTy).Contents (Elt F)),
    nullary main_cst_7 (constant S_ .f32 0x00000000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v38) (TRef.of (T := ⟨S100000, .f32⟩) main_v39) (TRef.of (T := ⟨S100000, .f32⟩) main_call1_v1) (TRef.of (T := ⟨S100000, .f32⟩) main_v40) select,
    nullary main_c (constantI S_ 32 0#32),
    unary main_c main_v41 (broadcastInDim S1700000 ![] bcast_S_S1700000 : (⟨S_, .i32⟩ : BufTy).Contents (Elt F) → (⟨S1700000, .i32⟩ : BufTy).Contents (Elt F)),
    binary main_v29 main_v41 main_v42 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v43 (broadcastInDim S1700000 ![] bcast_S_S1700000 : (⟨S_, .i32⟩ : BufTy).Contents (Elt F) → (⟨S1700000, .i32⟩ : BufTy).Contents (Elt F)),
    binary main_v29 main_v43 main_v44 (addi : (⟨S1700000, .i32⟩ : BufTy).Contents (Elt F) → (⟨S1700000, .i32⟩ : BufTy).Contents (Elt F) → (⟨S1700000, .i32⟩ : BufTy).Contents (Elt F)),
    ternary main_v42 main_v44 main_v29 main_v45 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v45 main_v46 (broadcastInDim S1700000x1 ![0] bcast_S1700000_S1700000x1_0 : (⟨S1700000, .i32⟩ : BufTy).Contents (Elt F) → (⟨S1700000x1, .i32⟩ : BufTy).Contents (Elt F)),
    binary main_v40 main_v46 main_v47 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_9 (constantI S_ 32 0#32),
    unary main_c_9 main_v48 (broadcastInDim S1700000 ![] bcast_S_S1700000 : (⟨S_, .i32⟩ : BufTy).Contents (Elt F) → (⟨S1700000, .i32⟩ : BufTy).Contents (Elt F)),
    binary main_v32 main_v48 main_v49 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v50 (broadcastInDim S1700000 ![] bcast_S_S1700000 : (⟨S_, .i32⟩ : BufTy).Contents (Elt F) → (⟨S1700000, .i32⟩ : BufTy).Contents (Elt F)),
    binary main_v32 main_v50 main_v51 (addi : (⟨S1700000, .i32⟩ : BufTy).Contents (Elt F) → (⟨S1700000, .i32⟩ : BufTy).Contents (Elt F) → (⟨S1700000, .i32⟩ : BufTy).Contents (Elt F)),
    ternary main_v49 main_v51 main_v32 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v52 main_v53 (broadcastInDim S1700000x1 ![0] bcast_S1700000_S1700000x1_0 : (⟨S1700000, .i32⟩ : BufTy).Contents (Elt F) → (⟨S1700000x1, .i32⟩ : BufTy).Contents (Elt F)),
    binary main_v40 main_v53 main_v54 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v47 main_v54 main_v55 (mulf : (⟨S1700000, .f32⟩ : BufTy).Contents (Elt F) → (⟨S1700000, .f32⟩ : BufTy).Contents (Elt F) → (⟨S1700000, .f32⟩ : BufTy).Contents (Elt F)),
    nullary main_c_11 (constantI S_ 32 0#32),
    unary main_c_11 main_v56 (broadcastInDim S1700000 ![] bcast_S_S1700000 : (⟨S_, .i32⟩ : BufTy).Contents (Elt F) → (⟨S1700000, .i32⟩ : BufTy).Contents (Elt F)),
    binary main_v29 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v58 (broadcastInDim S1700000 ![] bcast_S_S1700000 : (⟨S_, .i32⟩ : BufTy).Contents (Elt F) → (⟨S1700000, .i32⟩ : BufTy).Contents (Elt F)),
    binary main_v29 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v29 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v25 main_v61 main_v62 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v55 main_v63 (broadcastInDim S1700000x1 ![0] bcast_S1700000_S1700000x1_0 : (⟨S1700000, .f32⟩ : BufTy).Contents (Elt F) → (⟨S1700000x1, .f32⟩ : BufTy).Contents (Elt F)),
    unary main_v63 main_v64 (broadcastInDim S1700000x128 ![0, 1] bcast_S1700000x1_S1700000x128_0_1 : (⟨S1700000x1, .f32⟩ : BufTy).Contents (Elt F) → (⟨S1700000x128, .f32⟩ : BufTy).Contents (Elt F)),
    binary main_v62 main_v64 main_v65 (mulf : (⟨S1700000x128, .f32⟩ : BufTy).Contents (Elt F) → (⟨S1700000x128, .f32⟩ : BufTy).Contents (Elt F) → (⟨S1700000x128, .f32⟩ : BufTy).Contents (Elt F)),
    nullary main_cst_13 (constant S_ .f32 0x00000000#32),
    unary main_cst_13 main_v66 (broadcastInDim S100000x128 ![] bcast_S_S100000x128 : (⟨S_, .f32⟩ : BufTy).Contents (Elt F) → (⟨S100000x128, .f32⟩ : BufTy).Contents (Elt F)),
    unary main_v32 main_v67 (broadcastInDim S1700000x1 ![0] bcast_S1700000_S1700000x1_0 : (⟨S1700000, .i32⟩ : BufTy).Contents (Elt F) → (⟨S1700000x1, .i32⟩ : BufTy).Contents (Elt F)),
    ternary main_v66 main_v67 main_v65 main_v68 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v68 main_v70 main_v71 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- The six stretches, in a row, are the program. -/
theorem ops_split : (ops : List (HloOp τ sig (Elt Ideal)))
    = ops.take 29 ++ ((ops.drop 29).take 3 ++ ((ops.drop 32).take 1 ++ ((ops.drop 33).take 18 ++ ((ops.drop 51).take 3 ++ ops.drop 54)))) := by
  simp only [ops, List.take, List.drop, List.cons_append, List.nil_append]

/-! ## The dense stage: three stretches -/

/-- The matrix normalised, weighted and shifted. -/
theorem dense1_affine (W : Valuation τ sig (Elt Ideal)) :
    StableHlo.after (ops.take 29 : List (HloOp τ sig (Elt Ideal))) W (Proc.devRef .tc main_v23) = affine (W (Proc.devRef .tc main_arg0)) (W (Proc.devRef .tc main_arg2)) (W (Proc.devRef .tc main_arg3)) := by
  simp only [ops, List.take, List.drop]
  after_results_simp
  unfold affine devs scaleCol devs meanCol
  rfl

theorem dense1_keeps_w (W : Valuation τ sig (Elt Ideal)) :
    StableHlo.after (ops.take 29 : List (HloOp τ sig (Elt Ideal))) W (Proc.devRef .tc main_arg4) = W (Proc.devRef .tc main_arg4) := by
  simp only [ops, List.take, List.drop]
  after_results_simp <;> rfl

theorem dense1_keeps_e (W : Valuation τ sig (Elt Ideal)) :
    StableHlo.after (ops.take 29 : List (HloOp τ sig (Elt Ideal))) W (Proc.devRef .tc main_arg1) = W (Proc.devRef .tc main_arg1) := by
  simp only [ops, List.take, List.drop]
  after_results_simp <;> rfl

theorem dense1_keeps_b (W : Valuation τ sig (Elt Ideal)) :
    StableHlo.after (ops.take 29 : List (HloOp τ sig (Elt Ideal))) W (Proc.devRef .tc main_arg5) = W (Proc.devRef .tc main_arg5) := by
  simp only [ops, List.take, List.drop]
  after_results_simp <;> rfl

/-- Cut off below at zero. -/
theorem dense2_cutoff (W : Valuation τ sig (Elt Ideal)) :
    StableHlo.after ((ops.drop 29).take 3 : List (HloOp τ sig (Elt Ideal))) W (Proc.devRef .tc main_v24) = cutoff (W (Proc.devRef .tc main_v23) : FVec Ideal S100000x128 .f32) := by
  simp only [ops, List.take, List.drop]
  after_results_simp
  unfold cutoff
  rfl

theorem dense2_keeps_w (W : Valuation τ sig (Elt Ideal)) :
    StableHlo.after ((ops.drop 29).take 3 : List (HloOp τ sig (Elt Ideal))) W (Proc.devRef .tc main_arg4) = W (Proc.devRef .tc main_arg4) := by
  simp only [ops, List.take, List.drop]
  after_results_simp <;> rfl

theorem dense2_keeps_e (W : Valuation τ sig (Elt Ideal)) :
    StableHlo.after ((ops.drop 29).take 3 : List (HloOp τ sig (Elt Ideal))) W (Proc.devRef .tc main_arg1) = W (Proc.devRef .tc main_arg1) := by
  simp only [ops, List.take, List.drop]
  after_results_simp <;> rfl

theorem dense2_keeps_b (W : Valuation τ sig (Elt Ideal)) :
    StableHlo.after ((ops.drop 29).take 3 : List (HloOp τ sig (Elt Ideal))) W (Proc.devRef .tc main_arg5) = W (Proc.devRef .tc main_arg5) := by
  simp only [ops, List.take, List.drop]
  after_results_simp <;> rfl

/-- Times the 128 × 128 matrix. -/
theorem dense3_times (W : Valuation τ sig (Elt Ideal)) :
    StableHlo.after ((ops.drop 32).take 1 : List (HloOp τ sig (Elt Ideal))) W (Proc.devRef .tc main_v25) = times (W (Proc.devRef .tc main_arg4)) (W (Proc.devRef .tc main_v24)) := by
  simp only [ops, List.take, List.drop]
  after_results_simp
  unfold times
  rfl

theorem dense3_keeps_e (W : Valuation τ sig (Elt Ideal)) :
    StableHlo.after ((ops.drop 32).take 1 : List (HloOp τ sig (Elt Ideal))) W (Proc.devRef .tc main_arg1) = W (Proc.devRef .tc main_arg1) := by
  simp only [ops, List.take, List.drop]
  after_results_simp <;> rfl

theorem dense3_keeps_b (W : Valuation τ sig (Elt Ideal)) :
    StableHlo.after ((ops.drop 32).take 1 : List (HloOp τ sig (Elt Ideal))) W (Proc.devRef .tc main_arg5) = W (Proc.devRef .tc main_arg5) := by
  simp only [ops, List.take, List.drop]
  after_results_simp <;> rfl

/-! ## The sparse stage: three stretches -/

/-- The source rows. -/
theorem first_sources (W : Valuation τ sig (Elt Ideal)) :
    StableHlo.after ((ops.drop 33).take 18 : List (HloOp τ sig (Elt Ideal))) W (Proc.devRef .tc main_v29) = sources (W (Proc.devRef .tc main_arg1)) := by
  simp only [ops, List.take, List.drop]
  after_results_simp
  unfold sources
  rfl

/-- The target rows. -/
theorem first_targets (W : Valuation τ sig (Elt Ideal)) :
    StableHlo.after ((ops.drop 33).take 18 : List (HloOp τ sig (Elt Ideal))) W (Proc.devRef .tc main_v32) = targets (W (Proc.devRef .tc main_arg1)) := by
  simp only [ops, List.take, List.drop]
  after_results_simp
  unfold targets
  rfl

/-- Where something arrives. -/
theorem first_arrives (W : Valuation τ sig (Elt Ideal)) :
    StableHlo.after ((ops.drop 33).take 18 : List (HloOp τ sig (Elt Ideal))) W (Proc.devRef .tc main_v38) = arrives (W (Proc.devRef .tc main_arg1)) := by
  simp only [ops, List.take, List.drop]
  after_results_simp
  unfold arrives degreeOf targets
  rfl

/-- deg^(−1/2) everywhere. -/
theorem first_rsqrtDeg (W : Valuation τ sig (Elt Ideal)) :
    StableHlo.after ((ops.drop 33).take 18 : List (HloOp τ sig (Elt Ideal))) W (Proc.devRef .tc main_v39) = rsqrtDeg (W (Proc.devRef .tc main_arg1)) := by
  simp only [ops, List.take, List.drop]
  after_results_simp
  unfold rsqrtDeg degreeOf targets
  rfl

/-- The float zero the choice falls back on. -/
theorem first_zero (W : Valuation τ sig (Elt Ideal)) :
    StableHlo.after ((ops.drop 33).take 18 : List (HloOp τ sig (Elt Ideal))) W (Proc.devRef .tc main_cst_7) = constant (F := Ideal) S_ .f32 0x00000000#32 := by
  simp only [ops, List.take, List.drop]
  after_results_simp <;> rfl

theorem first_keeps_h (W : Valuation τ sig (Elt Ideal)) :
    StableHlo.after ((ops.drop 33).take 18 : List (HloOp τ sig (Elt Ideal))) W (Proc.devRef .tc main_v25) = W (Proc.devRef .tc main_v25) := by
  simp only [ops, List.take, List.drop]
  after_results_simp <;> rfl

theorem first_keeps_b (W : Valuation τ sig (Elt Ideal)) :
    StableHlo.after ((ops.drop 33).take 18 : List (HloOp τ sig (Elt Ideal))) W (Proc.devRef .tc main_arg5) = W (Proc.devRef .tc main_arg5) := by
  simp only [ops, List.take, List.drop]
  after_results_simp <;> rfl

/-- deg^(−1/2) where something arrives, the constant elsewhere. -/
theorem second_choice (W : Valuation τ sig (Elt Ideal)) :
    StableHlo.after ((ops.drop 51).take 3 : List (HloOp τ sig (Elt Ideal))) W (Proc.devRef .tc main_v40) = chooseOr (W (Proc.devRef .tc main_v38) : IVec S100000 1) (W (Proc.devRef .tc main_v39) : FVec Ideal S100000 .f32) (W (Proc.devRef .tc main_cst_7) : FVec Ideal S_ .f32) := by
  simp only [ops, List.take, List.drop]
  after_results_simp
  unfold chooseOr
  rfl

theorem second_keeps_h (W : Valuation τ sig (Elt Ideal)) :
    StableHlo.after ((ops.drop 51).take 3 : List (HloOp τ sig (Elt Ideal))) W (Proc.devRef .tc main_v25) = W (Proc.devRef .tc main_v25) := by
  simp only [ops, List.take, List.drop]
  after_results_simp <;> rfl

theorem second_keeps_sources (W : Valuation τ sig (Elt Ideal)) :
    StableHlo.after ((ops.drop 51).take 3 : List (HloOp τ sig (Elt Ideal))) W (Proc.devRef .tc main_v29) = W (Proc.devRef .tc main_v29) := by
  simp only [ops, List.take, List.drop]
  after_results_simp <;> rfl

theorem second_keeps_targets (W : Valuation τ sig (Elt Ideal)) :
    StableHlo.after ((ops.drop 51).take 3 : List (HloOp τ sig (Elt Ideal))) W (Proc.devRef .tc main_v32) = W (Proc.devRef .tc main_v32) := by
  simp only [ops, List.take, List.drop]
  after_results_simp <;> rfl

theorem second_keeps_b (W : Valuation τ sig (Elt Ideal)) :
    StableHlo.after ((ops.drop 51).take 3 : List (HloOp τ sig (Elt Ideal))) W (Proc.devRef .tc main_arg5) = W (Proc.devRef .tc main_arg5) := by
  simp only [ops, List.take, List.drop]
  after_results_simp <;> rfl

/-- The rows of the dense stage carried along the edges. -/
theorem third_result (W : Valuation τ sig (Elt Ideal)) :
    StableHlo.after (ops.drop 54 : List (HloOp τ sig (Elt Ideal))) W (Proc.devRef .tc main_v71) = aggregateOf (W (Proc.devRef .tc main_v25)) (W (Proc.devRef .tc main_v40)) (W (Proc.devRef .tc main_v29)) (W (Proc.devRef .tc main_v32)) (W (Proc.devRef .tc main_arg5)) := by
  simp only [ops, List.take, List.drop]
  after_results_simp
  unfold aggregateOf edgeFactorOf wrapped
  rfl

/-! ## In a row -/

/-- THE RESULT BUFFER after the 92 operations, from any contents `V`: the sparse stage of the dense stage of the inputs. -/
theorem read_back (V : Valuation τ sig (Elt Ideal)) :
    StableHlo.after (ops : List (HloOp τ sig (Elt Ideal))) V (Proc.devRef .tc main_v71)
      = aggregate (V (Proc.devRef .tc main_arg1)) (V (Proc.devRef .tc main_arg5))
          (dense (V (Proc.devRef .tc main_arg0)) (V (Proc.devRef .tc main_arg2)) (V (Proc.devRef .tc main_arg3)) (V (Proc.devRef .tc main_arg4))) := by
  rw [ops_split, AfterAppend.after_append, AfterAppend.after_append, AfterAppend.after_append, AfterAppend.after_append,
    AfterAppend.after_append, third_result, second_choice,
    second_keeps_h, second_keeps_sources, second_keeps_targets, second_keeps_b,
    first_keeps_h, first_sources, first_targets, first_keeps_b, first_arrives, first_rsqrtDeg, first_zero,
    dense3_times, dense3_keeps_e, dense3_keeps_b, dense2_cutoff, dense2_keeps_w, dense2_keeps_e, dense2_keeps_b,
    dense1_affine, dense1_keeps_w, dense1_keeps_e, dense1_keeps_b]
  rfl

set_option maxRecDepth 8192 in
set_option maxHeartbeats 36800000 in
/-- On every device, from any memory with zero counters: every weakly fair execution of the reference terminates with
    its result at the sparse stage of its dense stage, and its six inputs unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v71)
        = aggregate (m ((c.tc : Thread nD τ).loc main_arg1)) (m ((c.tc : Thread nD τ).loc main_arg5))
            (dense (m ((c.tc : Thread nD τ).loc main_arg0)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v71).trans (read_back _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end RefRun

end
-- ==== Proof.RowNormLinear.lean ====
/-
  The dense stage of the layer, as one function of its inputs, entry by entry.

  Let `X` be a matrix with 128 lanes per row. Row `r` is centred at its mean
      μ_r = (Σ_k X[r,k]) / 128,
  its spread is measured by the mean of the squared deviations
      v_r = (Σ_k (X[r,k] − μ_r)²) / 128,
  and every deviation is scaled by (v_r + ε)^(−1/2), multiplied by the lane's weight γ[k] and shifted by the lane's
  offset β[k]. What is negative is replaced by zero, and the row is multiplied on the right by the 128 × 128 matrix
  `W`:
      dense X γ β W [r, j] = Σ_k max(((X[r,k] − μ_r) · (v_r + ε)^(−1/2)) · γ[k] + β[k], 0) · W[k, j].
  All of it is read on the extended reals, with the division, the inverse square root and the maximum the extended
  reals' own; 128, ε and 0 are the binary values of the three float words the programs carry, never evaluated here.

  The number of rows is left open, because the one fact used about this function is that ROW `r` OF THE RESULT
  DEPENDS ON ROW `r` OF `X` ONLY (`dense_of_row`): a band of consecutive rows of `X`, processed by itself, gives the
  same band of the result. No law of arithmetic is needed for that, so nothing here asks an entry to be finite.
-/
import Idealize.ShloMosaic.PureOps.Ideal
import Idealize.ShloMosaic.Lib.ValueIdx

noncomputable section

open scoped BigOperators

namespace RowNormLinear

open Idealize.ShloMosaic Idealize.ShloMosaic.ValueIdx

/-- The lane count 128 as the float word both programs divide by. -/
abbrev lanes : EReal := Ideal.ofBits .f32 0x43000000#32
/-- The small positive word ε added to a row's spread before the inverse square root. -/
abbrev eps : EReal := Ideal.ofBits .f32 0x3727C5AC#32
/-- The float word for zero, below which an entry is cut off. -/
abbrev floor : EReal := Ideal.ofBits .f32 0x00000000#32

variable {R : ℕ}

/-- μ_r: the mean of row `r`. -/
def mean (X : (⟨2, ![R, 128]⟩ : Shape).Idx → EReal) (r : Fin R) : EReal :=
  Ideal.div (∑ k : Fin 128, X (ix2 r k)) lanes

/-- X[r,k] − μ_r: the deviation of an entry from its row's mean. -/
def dev (X : (⟨2, ![R, 128]⟩ : Shape).Idx → EReal) (r : Fin R) (k : Fin 128) : EReal :=
  X (ix2 r k) - mean X r

/-- v_r: the mean of the squared deviations of row `r`. -/
def spread (X : (⟨2, ![R, 128]⟩ : Shape).Idx → EReal) (r : Fin R) : EReal :=
  Ideal.div (∑ k : Fin 128, dev X r k * dev X r k) lanes

/-- The normalised, weighted, shifted entry, cut off below at zero. -/
def act (X : (⟨2, ![R, 128]⟩ : Shape).Idx → EReal) (γ β : (⟨1, ![128]⟩ : Shape).Idx → EReal) (r : Fin R) (k : Fin 128) : EReal :=
  max (dev X r k * Ideal.rsqrt (spread X r + eps) * γ (ix1 k) + β (ix1 k)) floor

/-- The dense stage at row `r`, column `j`: the row of cut-off entries against column `j` of `W`. -/
def dense (X : (⟨2, ![R, 128]⟩ : Shape).Idx → EReal) (γ β : (⟨1, ![128]⟩ : Shape).Idx → EReal)
    (W : (⟨2, ![128, 128]⟩ : Shape).Idx → EReal) (r : Fin R) (j : Fin 128) : EReal :=
  ∑ k : Fin 128, act X γ β r k * W (ix2 k j)

/-! ## A row of the result depends on the same row of the input only -/

variable {R' : ℕ}

theorem mean_of_row {X' : (⟨2, ![R', 128]⟩ : Shape).Idx → EReal} {X : (⟨2, ![R, 128]⟩ : Shape).Idx → EReal} {p : Fin R'} {r : Fin R}
    (h : ∀ k : Fin 128, X' (ix2 p k) = X (ix2 r k)) : mean X' p = mean X r := by
  unfold mean; simp only [h]

theorem dev_of_row {X' : (⟨2, ![R', 128]⟩ : Shape).Idx → EReal} {X : (⟨2, ![R, 128]⟩ : Shape).Idx → EReal} {p : Fin R'} {r : Fin R}
    (h : ∀ k : Fin 128, X' (ix2 p k) = X (ix2 r k)) (k : Fin 128) : dev X' p k = dev X r k := by
  unfold dev; rw [h k, mean_of_row h]

theorem spread_of_row {X' : (⟨2, ![R', 128]⟩ : Shape).Idx → EReal} {X : (⟨2, ![R, 128]⟩ : Shape).Idx → EReal} {p : Fin R'} {r : Fin R}
    (h : ∀ k : Fin 128, X' (ix2 p k) = X (ix2 r k)) : spread X' p = spread X r := by
  unfold spread; simp only [dev_of_row h]

theorem act_of_row {X' : (⟨2, ![R', 128]⟩ : Shape).Idx → EReal} {X : (⟨2, ![R, 128]⟩ : Shape).Idx → EReal} {p : Fin R'} {r : Fin R}
    (h : ∀ k : Fin 128, X' (ix2 p k) = X (ix2 r k)) (γ β : (⟨1, ![128]⟩ : Shape).Idx → EReal) (k : Fin 128) :
    act X' γ β p k = act X γ β r k := by
  unfold act; rw [dev_of_row h k, spread_of_row h]

/-- If row `p` of `X'` is row `r` of `X`, lane by lane, then row `p` of the dense stage of `X'` is row `r` of the
    dense stage of `X`, whatever the other rows of the two matrices hold and however many there are. -/
theorem dense_of_row {X' : (⟨2, ![R', 128]⟩ : Shape).Idx → EReal} {X : (⟨2, ![R, 128]⟩ : Shape).Idx → EReal} {p : Fin R'} {r : Fin R}
    (h : ∀ k : Fin 128, X' (ix2 p k) = X (ix2 r k)) (γ β : (⟨1, ![128]⟩ : Shape).Idx → EReal)
    (W : (⟨2, ![128, 128]⟩ : Shape).Idx → EReal) (j : Fin 128) : dense X' γ β W p j = dense X γ β W r j := by
  unfold dense; simp only [act_of_row h]

/-- The same with the weights, the offsets, the matrix and the column replaced by equal ones: the form in which a band
    of rows held beside its own copies of the small inputs is compared with the whole arrays. -/
theorem dense_congr {X' : (⟨2, ![R', 128]⟩ : Shape).Idx → EReal} {X : (⟨2, ![R, 128]⟩ : Shape).Idx → EReal} {p : Fin R'} {r : Fin R}
    (h : ∀ k : Fin 128, X' (ix2 p k) = X (ix2 r k)) {γ' γ β' β : (⟨1, ![128]⟩ : Shape).Idx → EReal}
    {W' W : (⟨2, ![128, 128]⟩ : Shape).Idx → EReal} (hγ : γ' = γ) (hβ : β' = β) (hW : W' = W) {j' j : Fin 128} (hj : j' = j) :
    dense X' γ' β' W' p j' = dense X γ β W r j := by
  subst hγ hβ hW hj
  exact dense_of_row h _ _ _ _

/-! ## The dense stage as one array -/

/-- The dense stage as a whole array: entry `i` is `dense` at `i`'s row and column. -/
def denseArray (X : (⟨2, ![R, 128]⟩ : Shape).Idx → EReal) (γ β : (⟨1, ![128]⟩ : Shape).Idx → EReal)
    (W : (⟨2, ![128, 128]⟩ : Shape).Idx → EReal) : (⟨2, ![R, 128]⟩ : Shape).Idx → EReal :=
  fun i => dense X γ β W (i 0) (i 1)

theorem denseArray_apply (X : (⟨2, ![R, 128]⟩ : Shape).Idx → EReal) (γ β : (⟨1, ![128]⟩ : Shape).Idx → EReal)
    (W : (⟨2, ![128, 128]⟩ : Shape).Idx → EReal) (r : Fin R) (j : Fin 128) :
    denseArray X γ β W (ix2 r j) = dense X γ β W r j := rfl

end RowNormLinear

end
-- ==== Proof.ReferenceDense.lean ====
/-
  The reference's dense stage is `RowNormLinear.dense`, entry by entry.

  The reference computes the dense stage on the whole 100000 × 128 matrix in whole-array steps (`RefStages`). Read at one
  entry `(p, q)`, each step looks at its operands in row `p` only: a row sum kept as a column is, at row `p`, the sum
  over the lanes of that row, and it starts from the float zero, which adds nothing; a column repeated across the lanes
  is, at `(p, k)`, the column at row `p`; a lane vector repeated down the rows is, at `(p, k)`, the vector at lane
  `k`; a constant repeated everywhere is the constant; the arithmetic is entry by entry; and the product with the
  matrix at `(p, q)` is the sum over the inner index. Following the stages from the inside out gives the mean, the
  deviations, the spread, the scale and the cut-off entries of row `p` as `RowNormLinear` names them.
-/
import proofs.«146687_j10763188043961_1_alg».proof.Proof.ReferenceStages
import proofs.«146687_j10763188043961_1_alg».proof.Proof.RowNormLinear
import Idealize.ShloMosaic.Lib.Pipeline.Value
import Idealize.ShloMosaic.PureOps.Ideal.Laws

noncomputable section

open scoped BigOperators

namespace ReferenceDense

open Cert.ReferenceIdeal Cert.ReferenceIdeal.Gen Idealize.ShloMosaic Idealize.ShloMosaic.ValueIdx RowNormLinear

/-! ## The layout steps at an entry -/

section Layout
variable {α : Type}

/-- A vector of 100000 entries kept as a column: at `(p, 0)` the vector at `p`. -/
theorem column_at (v : S100000.Idx → α) (p : Fin 100000) (u : Fin 1) :
    broadcastInDim S100000x1 ![0] bcast_S100000_S100000x1_0 v (ix2 p u) = v (ix1 p) :=
  broadcastInDim_apply _ bcast_S100000_S100000x1_0 v (ix2 p u) (ix1 p) (fun a => match a with
    | ⟨0, _⟩ => by show p.val = if (100000 : Nat) = 1 then 0 else p.val; rw [if_neg (by decide)])

/-- A constant repeated down a column is the constant. -/
theorem const_column_at (c : S_.Idx → α) (p : Fin 100000) (u : Fin 1) :
    broadcastInDim S100000x1 ![] bcast_S_S100000x1 c (ix2 p u) = c ix0 :=
  broadcastInDim_apply _ bcast_S_S100000x1 c (ix2 p u) ix0 (fun a => a.elim0)

/-- A column repeated across the 128 lanes: at `(p, k)` the column at row `p`. -/
theorem across_at (v : S100000x1.Idx → α) (p : Fin 100000) (k : Fin 128) :
    broadcastInDim S100000x128 ![0, 1] bcast_S100000x1_S100000x128_0_1 v (ix2 p k) = v (ix2 p (0 : Fin 1)) :=
  broadcastInDim_apply _ bcast_S100000x1_S100000x128_0_1 v (ix2 p k) (ix2 p (0 : Fin 1)) (fun a => match a with
    | ⟨0, _⟩ => by show p.val = if (100000 : Nat) = 1 then 0 else p.val; rw [if_neg (by decide)]
    | ⟨1, _⟩ => by show (0 : Nat) = if (1 : Nat) = 1 then 0 else k.val; rw [if_pos rfl])

/-- A lane vector seen as one row: at `(0, k)` the vector at lane `k`. -/
theorem row_at (v : S128.Idx → α) (u : Fin 1) (k : Fin 128) :
    broadcastInDim S1x128 ![1] bcast_S128_S1x128_1 v (ix2 u k) = v (ix1 k) :=
  broadcastInDim_apply _ bcast_S128_S1x128_1 v (ix2 u k) (ix1 k) (fun a => match a with
    | ⟨0, _⟩ => by show k.val = if (128 : Nat) = 1 then 0 else k.val; rw [if_neg (by decide)])

/-- One row repeated down the 100000 rows: at `(p, k)` the row at lane `k`. -/
theorem down_at (v : S1x128.Idx → α) (p : Fin 100000) (k : Fin 128) :
    broadcastInDim S100000x128 ![0, 1] bcast_S1x128_S100000x128_0_1 v (ix2 p k) = v (ix2 (0 : Fin 1) k) :=
  broadcastInDim_apply _ bcast_S1x128_S100000x128_0_1 v (ix2 p k) (ix2 (0 : Fin 1) k) (fun a => match a with
    | ⟨0, _⟩ => by show (0 : Nat) = if (1 : Nat) = 1 then 0 else p.val; rw [if_pos rfl]
    | ⟨1, _⟩ => by show k.val = if (128 : Nat) = 1 then 0 else k.val; rw [if_neg (by decide)])

/-- A constant repeated over the whole matrix is the constant. -/
theorem const_matrix_at (c : S_.Idx → α) (p : Fin 100000) (k : Fin 128) :
    broadcastInDim S100000x128 ![] bcast_S_S100000x128 c (ix2 p k) = c ix0 :=
  broadcastInDim_apply _ bcast_S_S100000x128 c (ix2 p k) ix0 (fun a => a.elim0)

end Layout

/-- A row sum of the matrix, started from the float zero, at row `r`: the sum over the 128 lanes of that row. -/
theorem rowsum_at (src : FVec Ideal S100000x128 .f32) (r : Fin 100000) :
    Host.reduceAdd (F := Ideal) src (constant (F := Ideal) S_ .f32 0x00000000#32) reducesTo_S100000x128_S100000_d1 h_S_ (ix1 r)
      = ∑ k : Fin 128, src (ix2 r k) := by
  simp only [Host.reduceAdd, Ideal.hostReduceAdd_def]
  rw [Ideal.hostReduceAdd_single reducesTo_S100000x128_S100000_d1 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  exact congrArg src (funext fun a => Fin.ext (by match a with | ⟨0, _⟩ => rfl | ⟨1, _⟩ => rfl))

/-- The coordinates of the two operand positions of the product at `(p, q)`. -/
theorem left_row (j : S100000x128.Idx) (t : dot_S100000x128_S128x128_S100000x128_1_0_0_1_n_n.contr.Idx) :
    (dot_S100000x128_S128x128_S100000x128_1_0_0_1_n_n.lhsIdx j t 0).val = (j 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem left_inner (j : S100000x128.Idx) (t : dot_S100000x128_S128x128_S100000x128_1_0_0_1_n_n.contr.Idx) :
    (dot_S100000x128_S128x128_S100000x128_1_0_0_1_n_n.lhsIdx j t 1).val = (t ⟨0, by decide⟩).val :=
  dot_S100000x128_S128x128_S100000x128_1_0_0_1_n_n.lhsIdx_val_of_single rfl j t
theorem right_inner (j : S100000x128.Idx) (t : dot_S100000x128_S128x128_S100000x128_1_0_0_1_n_n.contr.Idx) :
    (dot_S100000x128_S128x128_S100000x128_1_0_0_1_n_n.rhsIdx j t 0).val = (t ⟨0, by decide⟩).val :=
  dot_S100000x128_S128x128_S100000x128_1_0_0_1_n_n.rhsIdx_val_of_single rfl j t
theorem right_col (j : S100000x128.Idx) (t : dot_S100000x128_S128x128_S100000x128_1_0_0_1_n_n.contr.Idx) :
    (dot_S100000x128_S128x128_S100000x128_1_0_0_1_n_n.rhsIdx j t 1).val = (j 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The matrix product at `(p, q)`: Σ_k A[p,k] · B[k,q]. -/
theorem product_at (A : FVec Ideal S100000x128 .f32) (B : FVec Ideal S128x128 .f32) (p : Fin 100000) (q : Fin 128) :
    Host.dotGeneral (F := Ideal) dot_S100000x128_S128x128_S100000x128_1_0_0_1_n_n none A B (ix2 p q)
      = ∑ k : Fin 128, A (ix2 p k) * B (ix2 k q) := by
  simp only [Host.dotGeneral]
  rw [Ideal.dotGeneral_apply,
    ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q)
      ((ValueIdx.contrEquiv1 dot_S100000x128_S128x128_S100000x128_1_0_0_1_n_n 128 rfl rfl).symm k) = ix2 p k :=
    funext fun a => Fin.ext (by
      match a with
      | ⟨0, _⟩ => exact left_row _ _
      | ⟨1, _⟩ => exact (left_inner _ _).trans hk)
  have er : dot_S100000x128_S128x128_S100000x128_1_0_0_1_n_n.rhsIdx (ix2 p q)
      ((ValueIdx.contrEquiv1 dot_S100000x128_S128x128_S100000x128_1_0_0_1_n_n 128 rfl rfl).symm k) = ix2 k q :=
    funext fun a => Fin.ext (by
      match a with
      | ⟨0, _⟩ => exact (right_inner _ _).trans hk
      | ⟨1, _⟩ => exact right_col _ _)
  rw [el, er]

/-! ## The stages at an entry, from the inside out -/

variable (x : FVec Ideal S100000x128 .f32) (g bt : FVec Ideal S128 .f32) (w : FVec Ideal S128x128 .f32)

theorem meanCol_at (p : Fin 100000) (u : Fin 1) : RefStages.meanCol x (ix2 p u) = mean x p := by
  unfold RefStages.meanCol mean
  show Ideal.div _ _ = _
  refine congrArg₂ Ideal.div ?_ (const_column_at _ p u)
  refine (column_at _ p u).trans ?_
  exact rowsum_at _ p

theorem devs_at (p : Fin 100000) (k : Fin 128) : RefStages.devs x (ix2 p k) = dev x p k := by
  unfold RefStages.devs dev
  refine (subf_apply _ _ _).trans ?_
  refine congrArg₂ (· - ·) rfl ?_
  refine (across_at _ p k).trans ?_
  exact meanCol_at x p 0

theorem scaleCol_at (p : Fin 100000) (u : Fin 1) : RefStages.scaleCol x (ix2 p u) = Ideal.rsqrt (spread x p + eps) := by
  unfold RefStages.scaleCol spread
  show Ideal.rsqrt (Ideal.div _ _ + _) = _
  refine congrArg Ideal.rsqrt (congrArg₂ (· + ·) (congrArg₂ Ideal.div ?_ (const_column_at _ p u)) (const_column_at _ p u))
  refine (column_at _ p u).trans ?_
  refine (rowsum_at _ p).trans ?_
  refine Finset.sum_congr rfl fun k _ => ?_
  refine (mulf_apply _ _ _).trans ?_
  rw [devs_at]

theorem acts_at (p : Fin 100000) (k : Fin 128) : RefStages.acts x g bt (ix2 p k) = act x g bt p k := by
  unfold RefStages.acts RefStages.cutoff RefStages.affine act
  refine (maximumf_apply _ _ _).trans ?_
  refine congrArg₂ max ?_ (const_matrix_at _ p k)
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) (devs_at x p k) ?_
      refine (across_at _ p k).trans ?_
      exact scaleCol_at x p 0
    · refine (down_at _ p k).trans ?_
      exact row_at _ 0 k
  · refine (down_at _ p k).trans ?_
    exact row_at _ 0 k

/-- THE REFERENCE'S DENSE STAGE, entry by entry. -/
theorem dense_at (p : Fin 100000) (q : Fin 128) : RefStages.dense x g bt w (ix2 p q) = dense x g bt w p q := by
  unfold RefStages.dense RefStages.times
  refine (product_at _ _ p q).trans ?_
  unfold dense
  refine Finset.sum_congr rfl fun k _ => ?_
  rw [acts_at]

/-- The reference's dense stage as one array: `denseArray` of its inputs. -/
theorem dense_eq : RefStages.dense x g bt w = denseArray x g bt w := by
  funext i
  obtain ⟨p, q, rfl⟩ : ∃ (p : Fin 100000) (q : Fin 128), i = ix2 p q := ⟨i 0, i 1, eq_ix2 i⟩
  exact dense_at x g bt w p q

end ReferenceDense

end
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.KernelDense.lean ====
/-
  One grid step of the kernel computes `RowNormLinear.dense` of its band of rows, entry by entry.

  At a grid step the kernel holds a band of 5000 rows of the input (all 128 lanes), the lane weights, the lane offsets
  and the 128 × 128 matrix, and computes everything from those: each row's lane sum, kept as a column and divided by
  128; the column repeated across the lanes and subtracted; the squares' lane sums, again a column divided by 128; ε
  added and the inverse square root taken; the deviations times that column repeated across the lanes, times the weights
  and plus the offsets, each repeated down the rows; the maximum with zero; and the product with the matrix, summed into
  a zero start. The two changes of float format before the product keep every value on the extended reals.

  Below, the intermediate arrays are named as the kernel forms them, the whole step is the product of the last one
  with the matrix (`step_eq`, by unfolding), and each is read at an entry: a lane sum is the sum over the lanes of its
  row, a column view or repeat moves no value (`KeepdimsColumn`), a repeated lane vector is the vector at the lane,
  the arithmetic is entry by entry, and the product into zeros is the sum over the inner index. The result at
  `(p, q)` is `dense` of the band at `(p, q)`.
-/
import proofs.«146687_j10763188043961_1_alg».proof.Proof.Gen.KernelIdeal.Skeleton
import proofs.«146687_j10763188043961_1_alg».proof.Proof.RowNormLinear
import proofs.«146687_j10763188043961_1_alg».proof.Proof.LibKeepdimsColumn
import Idealize.ShloMosaic.Lib.ValueLayout
import Idealize.ShloMosaic.PureOps.Ideal.Laws

noncomputable section

open scoped BigOperators

namespace KernelDense

open Cert.KernelIdeal Idealize.ShloMosaic Idealize.ShloMosaic.ValueIdx RowNormLinear KeepdimsColumn

/-! ## Two whole-array operations at an entry -/

/-- A lane sum of a 5000 × 128 band, at row `r`: the sum over the 128 lanes of that row (it starts from the float zero,
    which is the sum's neutral element and is not seen in the result). -/
theorem lanesum_at (src : FVec Ideal S5000x128 .f32) (h : S5000x128.Reduces [1] S5000) (hφ : FKind.Formats .f32)
    (hacc : (0x00000000#32 : BitVec 32) = FKind.add.neutral .f32 hφ) (r : Fin 5000) :
    multiReduction (F := Ideal) .add [1] S5000 src 0x00000000#32 h hφ hacc (ix1 r) = ∑ k : Fin 128, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-- Row 0 of the band's product's left operand pairs with the inner index on its second axis, and the matrix with the
    inner index on its first: the coordinates of the two operand positions of the product at `(p, q)`. -/
theorem left_row (j : S5000x128.Idx) (t : dot_S5000x128_S128x128_S5000x128_1_0_0_1_n_n.contr.Idx) :
    (dot_S5000x128_S128x128_S5000x128_1_0_0_1_n_n.lhsIdx j t 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem left_inner (j : S5000x128.Idx) (t : dot_S5000x128_S128x128_S5000x128_1_0_0_1_n_n.contr.Idx) :
    (dot_S5000x128_S128x128_S5000x128_1_0_0_1_n_n.lhsIdx j t 1).val = (t ⟨0, by decide⟩).val :=
  dot_S5000x128_S128x128_S5000x128_1_0_0_1_n_n.lhsIdx_val_of_single rfl j t
theorem right_inner (j : S5000x128.Idx) (t : dot_S5000x128_S128x128_S5000x128_1_0_0_1_n_n.contr.Idx) :
    (dot_S5000x128_S128x128_S5000x128_1_0_0_1_n_n.rhsIdx j t 0).val = (t ⟨0, by decide⟩).val :=
  dot_S5000x128_S128x128_S5000x128_1_0_0_1_n_n.rhsIdx_val_of_single rfl j t
theorem right_col (j : S5000x128.Idx) (t : dot_S5000x128_S128x128_S5000x128_1_0_0_1_n_n.contr.Idx) :
    (dot_S5000x128_S128x128_S5000x128_1_0_0_1_n_n.rhsIdx j t 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The band's product with the matrix, summed into zeros, at `(p, q)`: Σ_k A[p,k] · B[k,q]. -/
theorem product_at {φ₁ φ₂ : FTy} (A : FVec Ideal S5000x128 φ₁) (B : FVec Ideal S128x128 φ₂) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact left_row _ _
      | ⟨1, _⟩ => exact (left_inner _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (right_inner _ _).trans hk
      | ⟨1, _⟩ => exact right_col _ _)
  rw [el, er]

/-! ## The step's intermediate arrays, as the kernel forms them -/

variable (x : FVec Ideal S5000x128 .f32) (g b : FVec Ideal S128 .f32) (w : FVec Ideal S128x128 .f32)

/-- The column of row means of the band. -/
def meanCol : FVec Ideal S5000x1 .f32 :=
  divf (shapeCast S5000x1 (multiReduction (F := Ideal) .add [1] S5000 x 0x00000000#32))
    (broadcast S5000x1 (Scalar.ofBits (F := Ideal) .f32 0x43000000#32))

/-- The band's deviations from its row means. -/
def devs : FVec Ideal S5000x128 .f32 := subf x (broadcastTo S5000x128 (meanCol x))

/-- The column of scales (v_r + ε)^(−1/2) of the band. -/
def scaleCol : FVec Ideal S5000x1 .f32 :=
  rsqrt (addf
    (divf (shapeCast S5000x1 (multiReduction (F := Ideal) .add [1] S5000 (mulf (devs x) (devs x)) 0x00000000#32))
      (broadcast S5000x1 (Scalar.ofBits (F := Ideal) .f32 0x43000000#32)))
    (broadcast S5000x1 (Scalar.ofBits (F := Ideal) .f32 0x3727C5AC#32)))

/-- The band normalised, weighted, shifted and cut off below at zero. -/
def acts : FVec Ideal S5000x128 .f32 :=
  maximumf
    (addf (mulf (mulf (devs x) (broadcastTo S5000x128 (scaleCol x))) (broadcastTo S5000x128 (shapeCast S1x128 g)))
      (broadcastTo S5000x128 (shapeCast S1x128 b)))
    (broadcast S5000x128 (Scalar.ofBits (F := Ideal) .f32 0x00000000#32))

/-- The step is the product of the cut-off band with the matrix, both moved to the narrower float format first. -/
theorem step_eq : Gen.k0_pay1 (F := Ideal) x g b w
    = matmul dot_S5000x128_S128x128_S5000x128_1_0_0_1_n_n none (truncf .bf16 (acts x g b)) (truncf .bf16 w)
        (constant S5000x128 .f32 0x00000000#32) := rfl

/-! ## Each of them at an entry -/

theorem meanCol_at (p : Fin 5000) (u : Fin 1) : meanCol x (ix2 p u) = mean x p := by
  unfold meanCol mean
  refine (divf_apply _ _ _).trans ?_
  refine congrArg₂ Ideal.div ?_ rfl
  refine (shapeCast_a_a1_apply _ _ p u).trans ?_
  exact lanesum_at _ _ _ _ p

theorem devs_at (p : Fin 5000) (k : Fin 128) : devs x (ix2 p k) = dev x p k := by
  unfold devs dev
  refine (subf_apply _ _ _).trans ?_
  refine congrArg₂ (· - ·) rfl ?_
  refine (broadcastTo_a1_ab_apply _ _ p k).trans ?_
  exact meanCol_at x p 0

theorem scaleCol_at (p : Fin 5000) (u : Fin 1) : scaleCol x (ix2 p u) = Ideal.rsqrt (spread x p + eps) := by
  unfold scaleCol spread
  show Ideal.rsqrt (_ + _) = _
  refine congrArg Ideal.rsqrt (congrArg₂ (· + ·) ?_ rfl)
  refine (divf_apply _ _ _).trans ?_
  refine congrArg₂ Ideal.div ?_ rfl
  refine (shapeCast_a_a1_apply _ _ p u).trans ?_
  refine (lanesum_at _ _ _ _ p).trans ?_
  refine Finset.sum_congr rfl fun k _ => ?_
  refine (mulf_apply _ _ _).trans ?_
  rw [devs_at]

theorem acts_at (p : Fin 5000) (k : Fin 128) : acts x g b (ix2 p k) = act x g b p k := by
  unfold acts act
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) (devs_at x p k) ?_
      refine (broadcastTo_a1_ab_apply _ _ p k).trans ?_
      exact scaleCol_at x p 0
    · refine (broadcastTo_1b_ab_apply _ _ p k).trans ?_
      exact shapeCast_a_1a_apply _ _ 0 k
  · refine (broadcastTo_1b_ab_apply _ _ p k).trans ?_
    exact shapeCast_a_1a_apply _ _ 0 k

/-- ONE GRID STEP, entry by entry: `dense` of the band. -/
theorem step_at (p : Fin 5000) (q : Fin 128) :
    Gen.k0_pay1 (F := Ideal) x g b w (ix2 p q) = dense x g b w p q := by
  rw [step_eq]
  refine (product_at _ _ p q).trans ?_
  unfold dense
  refine Finset.sum_congr rfl fun k _ => ?_
  refine congrArg₂ (· * ·) ?_ rfl
  exact acts_at x g b p k

end KernelDense

end
-- ==== Proof.KernelArray.lean ====
/-
  After the kernel's twenty grid steps its output array holds `RowNormLinear.denseArray` of the whole inputs.

  Grid step `t` (of twenty) is given rows 5000·t … 5000·t + 4999 of the input matrix, all 128 lanes, and the whole of
  the lane weights, the lane offsets and the 128 × 128 matrix; what it computes is written back to the same rows of the
  output array. So: the band's entry `(p, k)` is the matrix's entry `(5000·t + p, k)`, and the three small inputs are
  read as they are (`band_at`, `weights_eq`, `offsets_eq`, `matrix_eq`: the positions of the blocks are decided once over the
  twenty steps, `where_blocks`). One step computes the dense stage of its band (`KernelDense.step_at`), and a row of the
  dense stage depends on the same row of the input only (`RowNormLinear.dense_congr`), so step `t` writes back rows
  5000·t … of the dense stage of the WHOLE matrix (`writes_band`). Row `r` lies in the band of step `r / 5000`, so the
  twenty bands cover the output array (`covered`), which therefore ends holding the dense stage of the whole matrix
  (`output_array`).
-/
import proofs.«146687_j10763188043961_1_alg».proof.Proof.Gen.KernelIdeal.Frame
import proofs.«146687_j10763188043961_1_alg».proof.Proof.KernelDense
import Idealize.ShloMosaic.Lib.Pipeline.Value

noncomputable section

namespace KernelArray

open Cert.KernelIdeal Cert.KernelIdeal.Gen Idealize.ShloMosaic Idealize.ShloMosaic.TcCoe Idealize.SL.Sem
open Idealize.ShloMosaic.ValueIdx RowNormLinear
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- Where each window's block sits at step `t`, in blocks: the input band and the output band at row block `t`, lane
    block 0; the three small inputs at block 0 on every axis. Decided over the twenty steps. -/
theorem where_blocks : ∀ t : Fin cfg0.N,
    win0_0.index t (0 : Fin 2) = t.val ∧ win0_0.index t (1 : Fin 2) = 0
    ∧ win0_1.index t (0 : Fin 1) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks -/

/-- The band of step `t`: its entry `y` is the matrix's entry `i` whenever `i` is `y` moved down by 5000·t rows. -/
theorem band_at (c : Dev nD) (t : Fin cfg0.N) (y : S5000x128.Idx) (i : S100000x128.Idx)
    (h0 : (i 0).val = 5000 * t.val + (y 0).val) (h1 : (i 1).val = (y 1).val) :
    (iblk m c 0 t : Vec Ideal S5000x128 .f32) y = (V m c main_arg0 : S100000x128.Idx → Elt Ideal .f32) i := by
  obtain ⟨e0, e1, -⟩ := where_blocks t
  unfold iblk
  rw [View.read_apply]
  show V m c main_arg0 _ = V m c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- At every step the lane weights are read whole. -/
theorem weights_eq (c : Dev nD) (t : Fin cfg0.N) :
    (iblk m c 1 t : Vec Ideal S128 .f32) = (V m c main_arg2 : S128.Idx → Elt Ideal .f32) := by
  obtain ⟨-, -, e, -⟩ := where_blocks t
  funext z
  unfold iblk
  rw [View.read_apply]
  show V m c main_arg2 _ = V m c main_arg2 z
  congr 1
  funext a
  apply Fin.ext
  match a with
  | ⟨0, _⟩ => show win0_1.index t 0 * 128 + 1 * (z 0).val = (z 0).val; rw [e]; omega

/-- At every step the lane offsets are read whole. -/
theorem offsets_eq (c : Dev nD) (t : Fin cfg0.N) :
    (iblk m c 2 t : Vec Ideal S128 .f32) = (V m c main_arg3 : S128.Idx → Elt Ideal .f32) := by
  obtain ⟨-, -, -, e, -⟩ := where_blocks t
  funext z
  unfold iblk
  rw [View.read_apply]
  show V m c main_arg3 _ = V m c main_arg3 z
  congr 1
  funext a
  apply Fin.ext
  match a with
  | ⟨0, _⟩ => show win0_2.index t 0 * 128 + 1 * (z 0).val = (z 0).val; rw [e]; omega

/-- At every step the 128 × 128 matrix is read whole. -/
theorem matrix_eq (c : Dev nD) (t : Fin cfg0.N) :
    (iblk m c 3 t : Vec Ideal S128x128 .f32) = (V m c main_arg4 : S128x128.Idx → Elt Ideal .f32) := by
  obtain ⟨-, -, -, -, e0, e1, -⟩ := where_blocks t
  funext z
  unfold iblk
  rw [View.read_apply]
  show V m c main_arg4 _ = V m c main_arg4 z
  congr 1
  funext a
  apply Fin.ext
  match a with
  | ⟨0, _⟩ => show win0_3.index t 0 * 128 + 1 * (z 0).val = (z 0).val; rw [e0]; omega
  | ⟨1, _⟩ => show win0_3.index t 1 * 128 + 1 * (z 1).val = (z 1).val; rw [e1]; omega

/-! ## What a step writes back -/

/-- One step at any entry of its band, the entry not yet split into row and lane. -/
theorem step_entry (x : FVec Ideal S5000x128 .f32) (g b : FVec Ideal S128 .f32) (w : FVec Ideal S128x128 .f32) (y : S5000x128.Idx) :
    k0_pay1 (F := Ideal) x g b w y = dense x g b w (y 0) (y 1) := by
  obtain ⟨p, q, rfl⟩ : ∃ (p : Fin 5000) (q : Fin 128), y = ix2 p q := ⟨y 0, y 1, eq_ix2 y⟩
  exact KernelDense.step_at x g b w p q

/-- The dense stage of the whole inputs, as the array the output window's blocks are compared with. -/
abbrev whole (c : Dev nD) : S100000x128.Idx → Elt Ideal .f32 :=
  denseArray (V m c main_arg0) (V m c main_arg2) (V m c main_arg3) (V m c main_arg4)

/-- STEP `t` WRITES BACK rows 5000·t … 5000·t + 4999 of the dense stage of the whole inputs. -/
theorem writes_band (c : Dev nD) (t : Fin cfg0.N) :
    (dats m 0 c).flushed 4 t = ((cfg0.win 4).blk t).view.read (Elt Ideal) (whole m c) := by
  show (cfg0.win 4).cut (grid0.coords t) ((dats m 0 c).after 4 t) = _
  rw [after0_4]
  unfold out0_4
  rw [View.canon_unit_zero zeros2]
  simp only [View.ld_unit_zero (S := S5000x128) zeros2, View.ld_unit_zero (S := S128) zeros1, View.ld_unit_zero (S := S128x128) zeros2]
  obtain ⟨-, -, -, -, -, -, e6, e7⟩ := where_blocks t
  funext y
  show k0_pay1 (F := Ideal) (iblk m c 0 t) (iblk m c 1 t) (iblk m c 2 t) (iblk m c 3 t) y
      = whole m c (((cfg0.win 4).blk t).view.emb y)
  refine (step_entry (iblk m c 0 t) (iblk m c 1 t) (iblk m c 2 t) (iblk m c 3 t) y).trans ?_
  show dense (iblk m c 0 t) (iblk m c 1 t) (iblk m c 2 t) (iblk m c 3 t) (y 0) (y 1)
      = dense (V m c main_arg0) (V m c main_arg2) (V m c main_arg3) (V m c main_arg4)
          ((((cfg0.win 4).blk t).view.emb y) 0) ((((cfg0.win 4).blk t).view.emb y) 1)
  refine dense_congr (fun k => band_at m c t (ix2 (y 0) k) (ix2 ((((cfg0.win 4).blk t).view.emb y) 0) k) ?_ rfl)
    (weights_eq m c t) (offsets_eq m c t) (matrix_eq m c t) (Fin.ext ?_)
  · show win0_4.index t 0 * 5000 + 1 * (y 0).val = 5000 * t.val + (y 0).val
    rw [e6]; omega
  · show (y 1).val = win0_4.index t 1 * 128 + 1 * (y 1).val
    rw [e7]; omega

/-! ## The bands cover the output array -/

/-- An entry of the output array is in step `t`'s band iff each of its coordinates is in the band's range on that axis. -/
theorem mem_band (t : Fin cfg0.N) (i : S100000x128.Idx) :
    i ∈ ((cfg0.win 4).blk t).view.set ↔
      ∀ a : Fin 2, win0_4.index t a * S5000x128.size a ≤ (i a).val ∧ (i a).val < win0_4.index t a * S5000x128.size a + S5000x128.size a := by
  show i ∈ ((View.whole main_v0).slice (win0_4.rect t)).set ↔ _
  rw [View.set_slice_whole, Rect.mem_set_unit]
  exact Iff.rfl

/-- Row `r` is in the band of step `r / 5000`, and every step writes back: the twenty bands cover the array. -/
theorem covered (i : S100000x128.Idx) :
    ∃ t : Fin cfg0.N, (cfg0.win 4).flush t = true ∧ i ∈ ((cfg0.win 4).blk t).view.set := by
  have hN : cfg0.N = 20 := N_0
  have hi0 : (i 0).val < 100000 := (i 0).isLt
  have hi1 : (i 1).val < 128 := (i 1).isLt
  have hlt : (i 0).val / 5000 < cfg0.N := by rw [hN]; omega
  obtain ⟨-, -, -, -, -, -, e6, e7⟩ := where_blocks ⟨(i 0).val / 5000, hlt⟩
  refine ⟨⟨(i 0).val / 5000, hlt⟩, flush0_4 _, ?_⟩
  rw [mem_band]
  intro a
  match a with
  | ⟨0, _⟩ =>
    show win0_4.index ⟨(i 0).val / 5000, hlt⟩ 0 * 5000 ≤ (i 0).val ∧ (i 0).val < win0_4.index ⟨(i 0).val / 5000, hlt⟩ 0 * 5000 + 5000
    rw [e6]
    show (i 0).val / 5000 * 5000 ≤ (i 0).val ∧ (i 0).val < (i 0).val / 5000 * 5000 + 5000
    omega
  | ⟨1, _⟩ =>
    show win0_4.index ⟨(i 0).val / 5000, hlt⟩ 1 * 128 ≤ (i 1).val ∧ (i 1).val < win0_4.index ⟨(i 0).val / 5000, hlt⟩ 1 * 128 + 128
    rw [e7]
    omega

/-- THE OUTPUT ARRAY after the twenty steps: the dense stage of the whole inputs. -/
theorem output_array (c : Dev nD) : (dats m 0 c).arrAt 4 cfg0.N = whole m c :=
  (dats m 0 c).arrAt_eq_of_cover 4 (whole m c) (fun t _ => writes_band m c t) covered

end KernelArray

end
-- ==== Proof.KernelStages.lean ====
/-
  The sparse stage once more, over the kernel program's own vocabulary, and that it is the reference's.

  The kernel program and the reference each come with their own copies of the shapes and of the records that say which
  axes a gather or a scatter-add works along. The copies are equal, being written out from the same dimension
  numbers, but they are different names, so the sparse stage is stated here a second time over the kernel program's
  copies, step for step as in `RefStages`, and each step is shown equal to the reference's. The last line,
  `aggregate_eq`, is all that is used afterwards.
-/
import proofs.«146687_j10763188043961_1_alg».proof.Proof.Gen.KernelIdeal
import proofs.«146687_j10763188043961_1_alg».proof.Proof.ReferenceStages

noncomputable section

namespace KernelStages

open Cert.KernelIdeal Cert.KernelIdeal.Gen Idealize.ShloMosaic

variable (e : IVec S2x1600000 32) (b : FVec Ideal S128 .f32)

/-- Row 0 of the edge list followed by one loop per node: where each contribution comes from. -/
def sources : IVec S1700000 32 :=
  concatenate S1700000 0
    [⟨S1600000, (shapeCast _ (extractStridedSlice S1x1600000 ![0, 0] e slices_S2x1600000_S1x1600000_0_0) shapeCasts_S1x1600000_S1600000)⟩,
     ⟨S100000, (iotaInDim S100000 32 0)⟩] concatenates_S1600000_S100000_S1700000_d0

/-- Row 1 of the edge list followed by one loop per node: where each contribution goes. -/
def targets : IVec S1700000 32 :=
  concatenate S1700000 0
    [⟨S1600000, (shapeCast _ (extractStridedSlice S1x1600000 ![1, 0] e slices_S2x1600000_S1x1600000_1_0) shapeCasts_S1x1600000_S1600000)⟩,
     ⟨S100000, (iotaInDim S100000 32 0)⟩] concatenates_S1600000_S100000_S1700000_d0

/-- Row numbers as a column, a negative one counted from the end. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- How many contributions arrive at each node, given where they go: a sum of ones. -/
def degreeOf (t : IVec S1700000 32) : FVec Ideal S100000 .f32 :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 t)
    (broadcastInDim S1700000 ![] bcast_S_S1700000 (constant (F := Ideal) S_ .f32 0x3F800000#32))

/-- Where something arrives. -/
def arrives : IVec S100000 1 :=
  cmpf (F := Ideal) .ogt (degreeOf (targets e)) (broadcastInDim S100000 ![] bcast_S_S100000 (constant (F := Ideal) S_ .f32 0x00000000#32))

/-- deg^(−1/2), taken everywhere. -/
def rsqrtDeg : FVec Ideal S100000 .f32 := Host.rsqrt (F := Ideal) (degreeOf (targets e))

/-- One array where a condition holds and a constant elsewhere: the choice the programs make through a small function of
    their own. -/
def chooseOr (c : IVec S100000 1) (r : FVec Ideal S100000 .f32) (z : FVec Ideal S_ .f32) : FVec Ideal S100000 .f32 :=
  select c r (broadcastInDim S100000 ![] bcast_S_S100000 (id z))

/-- deg^(−1/2) where something arrives, 0 elsewhere. -/
def invSqrtDeg : FVec Ideal S100000 .f32 :=
  chooseOr (arrives e) (rsqrtDeg e) (constant (F := Ideal) S_ .f32 0x00000000#32)

/-- The factor of each contribution, from the per-node values `d`: d(source) · d(target). -/
def edgeFactorOf (d : FVec Ideal S100000 .f32) (s t : IVec S1700000 32) : FVec Ideal S1700000 .f32 :=
  mulf (F := Ideal)
    (Host.gather gather_S100000_S1700000x1_S1700000_n_0_n_n_0_1_1 d (wrapped s))
    (Host.gather gather_S100000_S1700000x1_S1700000_n_0_n_n_0_1_1 d (wrapped t))

/-- Rows of `h` read at the sources, each times its factor, summed into the rows of the targets, plus the offsets. -/
def aggregateOf (h : FVec Ideal S100000x128 .f32) (d : FVec Ideal S100000 .f32) (s t : IVec S1700000 32) (b : FVec Ideal S128 .f32) :
    FVec Ideal S100000x128 .f32 :=
  addf (F := Ideal)
    (Host.scatterAdd (F := Ideal) scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 t)
      (mulf (F := Ideal)
        (Host.gather gather_S100000x128_S1700000x1_S1700000x128_1_0_n_n_0_1_1128 h (wrapped s))
        (broadcastInDim S1700000x128 ![0, 1] bcast_S1700000x1_S1700000x128_0_1
          (broadcastInDim S1700000x1 ![0] bcast_S1700000_S1700000x1_0 (edgeFactorOf d s t)))))
    (broadcastInDim S100000x128 ![0, 1] bcast_S1x128_S100000x128_0_1 (broadcastInDim S1x128 ![1] bcast_S128_S1x128_1 b))

/-- THE SPARSE STAGE of an array `h`, for the edge list `e` and the offsets `b`. -/
def aggregate (h : FVec Ideal S100000x128 .f32) : FVec Ideal S100000x128 .f32 :=
  aggregateOf h (invSqrtDeg e) (sources e) (targets e) b

/-! ## Each step is the reference's -/

theorem sources_eq : sources e = RefStages.sources e := rfl
theorem targets_eq : targets e = RefStages.targets e := rfl
theorem wrapped_eq (v : IVec S1700000 32) : wrapped v = RefStages.wrapped v := rfl
theorem degreeOf_eq (t : IVec S1700000 32) : degreeOf t = RefStages.degreeOf t := rfl
theorem chooseOr_eq (c : IVec S100000 1) (r : FVec Ideal S100000 .f32) (z : FVec Ideal S_ .f32) :
    chooseOr c r z = RefStages.chooseOr c r z := rfl
theorem edgeFactorOf_eq (d : FVec Ideal S100000 .f32) (s t : IVec S1700000 32) :
    edgeFactorOf d s t = RefStages.edgeFactorOf d s t := rfl
theorem aggregateOf_eq (h : FVec Ideal S100000x128 .f32) (d : FVec Ideal S100000 .f32) (s t : IVec S1700000 32) (b : FVec Ideal S128 .f32) :
    aggregateOf h d s t b = RefStages.aggregateOf h d s t b := by
  unfold aggregateOf RefStages.aggregateOf
  rw [edgeFactorOf_eq, wrapped_eq]
  rfl

theorem arrives_eq : arrives e = RefStages.arrives e := by
  unfold arrives RefStages.arrives
  rw [targets_eq, degreeOf_eq]
theorem rsqrtDeg_eq : rsqrtDeg e = RefStages.rsqrtDeg e := by
  unfold rsqrtDeg RefStages.rsqrtDeg
  rw [targets_eq, degreeOf_eq]
theorem invSqrtDeg_eq : invSqrtDeg e = RefStages.invSqrtDeg e := by
  unfold invSqrtDeg RefStages.invSqrtDeg
  rw [arrives_eq, rsqrtDeg_eq, chooseOr_eq]

/-- THE SPARSE STAGE over the kernel program's vocabulary is the reference's. -/
theorem aggregate_eq (h : FVec Ideal S100000x128 .f32) : aggregate e b h = RefStages.aggregate e b h := by
  unfold aggregate RefStages.aggregate
  rw [invSqrtDeg_eq, sources_eq, targets_eq, aggregateOf_eq]

end KernelStages

end
-- ==== Proof.KernelRun.lean ====
/-
  The kernel program runs, and ends at the sparse stage applied to the dense stage of its inputs.

  The kernel program is the region of twenty grid steps followed by 59 whole-array operations on the same device: the
  sparse stage, applied to the region's output array, the edge list and the lane offsets. They come in three stretches.
  The first (18 operations) builds, from the edge list, the source and target rows, where something arrives, and
  deg^(−1/2) everywhere; it writes neither the region's output nor the offsets. The second is the small function that
  chooses between deg^(−1/2) and 0 (3 operations). The third (38 operations) reads the rows, scales and sums them and adds
  the offsets. Read back one stretch at a time, from contents `W` that are no further specified, each stretch leaves in
  its result buffers a named function of what it started from, and put in a row (`AfterAppend.after_append`) they
  leave `aggregate (W e) (W b) (W h)` (`tail_of`), which is the reference's sparse stage (`KernelStages.aggregate_eq`).
  After the region the output buffer holds the dense stage of the whole inputs (`KernelArray.output_array`) and the other
  two are as launched; hence the result (`result_eq`). The six inputs end unchanged: four are only read by the region, two
  are not touched by it, and no later operation writes any of them.
-/
import proofs.«146687_j10763188043961_1_alg».proof.Proof.Gen.KernelIdeal.Frame
import proofs.«146687_j10763188043961_1_alg».proof.Proof.KernelArray
import proofs.«146687_j10763188043961_1_alg».proof.Proof.KernelStages
import proofs.«146687_j10763188043961_1_alg».proof.Proof.LibAfterAppend
import Idealize.ShloMosaic.Lib.StableHlo.Run

noncomputable section

namespace KernelRun

open Cert.KernelIdeal Cert.KernelIdeal.Gen Idealize.ShloMosaic Idealize.ShloMosaic.TcCoe Idealize.SL.Sem Idealize.ShloMosaic.StableHlo
open Idealize.ShloMosaic.Pipeline (Dat)
open KernelStages

/-! ## The first stretch: from the edge list -/

/-- The source rows. -/
theorem first_sources (W : Valuation τ sig (Elt Ideal)) :
    StableHlo.after (hostOps1 : List (HloOp τ sig (Elt Ideal))) W (Proc.devRef .tc main_v4) = sources (W (Proc.devRef .tc main_arg1)) := by
  simp only [hostOps1]
  after_results_simp
  unfold sources
  rfl

/-- The target rows. -/
theorem first_targets (W : Valuation τ sig (Elt Ideal)) :
    StableHlo.after (hostOps1 : List (HloOp τ sig (Elt Ideal))) W (Proc.devRef .tc main_v7) = targets (W (Proc.devRef .tc main_arg1)) := by
  simp only [hostOps1]
  after_results_simp
  unfold targets
  rfl

/-- Where something arrives. -/
theorem first_arrives (W : Valuation τ sig (Elt Ideal)) :
    StableHlo.after (hostOps1 : List (HloOp τ sig (Elt Ideal))) W (Proc.devRef .tc main_v13) = arrives (W (Proc.devRef .tc main_arg1)) := by
  simp only [hostOps1]
  after_results_simp
  unfold arrives degreeOf targets
  rfl

/-- deg^(−1/2) everywhere. -/
theorem first_rsqrtDeg (W : Valuation τ sig (Elt Ideal)) :
    StableHlo.after (hostOps1 : List (HloOp τ sig (Elt Ideal))) W (Proc.devRef .tc main_v14) = rsqrtDeg (W (Proc.devRef .tc main_arg1)) := by
  simp only [hostOps1]
  after_results_simp
  unfold rsqrtDeg degreeOf targets
  rfl

/-- The float zero the choice falls back on. -/
theorem first_zero (W : Valuation τ sig (Elt Ideal)) :
    StableHlo.after (hostOps1 : List (HloOp τ sig (Elt Ideal))) W (Proc.devRef .tc main_cst_2) = constant (F := Ideal) S_ .f32 0x00000000#32 := by
  simp only [hostOps1]
  after_results_simp <;> rfl

/-- It writes neither the region's output nor the offsets. -/
theorem first_keeps_h (W : Valuation τ sig (Elt Ideal)) :
    StableHlo.after (hostOps1 : List (HloOp τ sig (Elt Ideal))) W (Proc.devRef .tc main_v0) = W (Proc.devRef .tc main_v0) := by
  simp only [hostOps1]
  after_results_simp <;> rfl

theorem first_keeps_b (W : Valuation τ sig (Elt Ideal)) :
    StableHlo.after (hostOps1 : List (HloOp τ sig (Elt Ideal))) W (Proc.devRef .tc main_arg5) = W (Proc.devRef .tc main_arg5) := by
  simp only [hostOps1]
  after_results_simp <;> rfl

/-! ## The second stretch: the choice -/

/-- deg^(−1/2) where something arrives, the constant elsewhere. -/
theorem second_choice (W : Valuation τ sig (Elt Ideal)) :
    StableHlo.after (hostOps1_1 : List (HloOp τ sig (Elt Ideal))) W (Proc.devRef .tc main_v15) = chooseOr (W (Proc.devRef .tc main_v13) : IVec S100000 1) (W (Proc.devRef .tc main_v14) : FVec Ideal S100000 .f32) (W (Proc.devRef .tc main_cst_2) : FVec Ideal S_ .f32) := by
  simp only [hostOps1_1]
  after_results_simp
  unfold chooseOr
  rfl

/-- It writes none of the other buffers the third stretch reads. -/
theorem second_keeps_h (W : Valuation τ sig (Elt Ideal)) :
    StableHlo.after (hostOps1_1 : List (HloOp τ sig (Elt Ideal))) W (Proc.devRef .tc main_v0) = W (Proc.devRef .tc main_v0) := by
  simp only [hostOps1_1]
  after_results_simp <;> rfl

theorem second_keeps_sources (W : Valuation τ sig (Elt Ideal)) :
    StableHlo.after (hostOps1_1 : List (HloOp τ sig (Elt Ideal))) W (Proc.devRef .tc main_v4) = W (Proc.devRef .tc main_v4) := by
  simp only [hostOps1_1]
  after_results_simp <;> rfl

theorem second_keeps_targets (W : Valuation τ sig (Elt Ideal)) :
    StableHlo.after (hostOps1_1 : List (HloOp τ sig (Elt Ideal))) W (Proc.devRef .tc main_v7) = W (Proc.devRef .tc main_v7) := by
  simp only [hostOps1_1]
  after_results_simp <;> rfl

theorem second_keeps_b (W : Valuation τ sig (Elt Ideal)) :
    StableHlo.after (hostOps1_1 : List (HloOp τ sig (Elt Ideal))) W (Proc.devRef .tc main_arg5) = W (Proc.devRef .tc main_arg5) := by
  simp only [hostOps1_1]
  after_results_simp <;> rfl

/-! ## The third stretch: gather, scale, sum, shift -/

/-- The rows of the region's output carried along the edges. -/
theorem third_result (W : Valuation τ sig (Elt Ideal)) :
    StableHlo.after (hostOps1_2 : List (HloOp τ sig (Elt Ideal))) W (Proc.devRef .tc main_v46) = aggregateOf (W (Proc.devRef .tc main_v0)) (W (Proc.devRef .tc main_v15)) (W (Proc.devRef .tc main_v4)) (W (Proc.devRef .tc main_v7)) (W (Proc.devRef .tc main_arg5)) := by
  simp only [hostOps1_2]
  after_results_simp
  unfold aggregateOf edgeFactorOf wrapped
  rfl

/-! ## In a row -/

/-- The 59 operations after the region, read back from any buffer contents `W`: the sparse stage of the three buffers
    they start from. -/
theorem tail_of (W : Valuation τ sig (Elt Ideal)) :
    StableHlo.after (List.flatten [hostOps1, hostOps1_1, hostOps1_2] : List (HloOp τ sig (Elt Ideal))) W (Proc.devRef .tc main_v46)
      = aggregate (W (Proc.devRef .tc main_arg1)) (W (Proc.devRef .tc main_arg5)) (W (Proc.devRef .tc main_v0)) := by
  rw [show (List.flatten [hostOps1, hostOps1_1, hostOps1_2] : List (HloOp τ sig (Elt Ideal))) = hostOps1 ++ (hostOps1_1 ++ hostOps1_2) from by
    simp only [List.flatten_cons, List.flatten_nil, List.append_nil]]
  rw [AfterAppend.after_append, AfterAppend.after_append, third_result, second_choice,
    second_keeps_h, second_keeps_sources, second_keeps_targets, second_keeps_b,
    first_keeps_h, first_sources, first_targets, first_keeps_b, first_arrives, first_rsqrtDeg, first_zero]
  rfl

variable (m : (ℓ : Loc nD τ sig) → Buf (Elt Ideal) ℓ) (ρ : Dev nD → PrngReg)

/-- THE KERNEL PROGRAM'S RESULT: the reference's sparse stage of the dense stage of the whole inputs. -/
theorem result_eq (c : Dev nD) :
    Pipeline.afterTail₀ cfgs (dats m) 0 (V0 m) [hostOps1, hostOps1_1, hostOps1_2] c main_v46
      = RefStages.aggregate (m ((c : Thread nD τ).loc main_arg1)) (m ((c : Thread nD τ).loc main_arg5)) (KernelArray.whole m c) := by
  unfold Pipeline.afterTail₀
  refine (tail_of _).trans ?_
  have he : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  have hb : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  have hh : Pipeline.withArrays (cfgs 0).spec c (V0 m c) (fun w => (dats m 0 c).arrAt w (cfgs 0).N) (Proc.devRef .tc main_v0)
      = KernelArray.whole m c :=
    (Pipeline.withArrays_arr spec0 launch0.win.arr_inj c (V0 m c) (fun w => (dats m 0 c).arrAt w (cfgs 0).N) 4).trans
      (KernelArray.output_array m c)
  rw [he, hb, hh]
  exact aggregate_eq _ _ _

/-- Every weakly fair execution of the kernel program terminates with its result at the sparse stage of the dense stage
    of its inputs, and its six inputs unchanged. -/
theorem run : θ_run defs (onTc (τ := τ) (main (F := Ideal))) ⟨m, fun _ => 0, ρ⟩ fun r => ∀ c : Dev nD,
      r.2.mem ((c.tc : Thread nD τ).loc main_v46)
        = RefStages.aggregate (m ((c : Thread nD τ).loc main_arg1)) (m ((c : Thread nD τ).loc main_arg5)) (KernelArray.whole m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v46 (Pipeline.mem_restRefs_of main_v46 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end KernelRun

end
-- ==== Proof.lean ====
/-
  The kernel and its reference compute the same layer: a row normalisation, a cut-off at zero and a 128 × 128 matrix
  (the dense stage), followed by a normalised sum over a graph's edges and loops plus lane offsets (the sparse stage).

  THE DENSE STAGE. For a matrix `x` of 100000 rows and 128 lanes, lane weights `γ`, lane offsets `β` and a
  128 × 128 matrix `W`, `RowNormLinear.dense x γ β W [r, j]` centres row `r` at its mean, scales it by
  (v_r + ε)^(−1/2) with v_r the mean squared deviation, multiplies by γ and adds β lane by lane, replaces what is
  negative by zero and takes the sum against column `j` of `W`, all on the extended reals. The reference computes it on
  the whole matrix in whole-array steps (`ReferenceDense.dense_eq`). The kernel computes it in twenty grid steps of 5000
  rows each, every step from its own band of rows and its own copies of γ, β, W; one step is the dense stage of its band
  (`KernelDense.step_at`), a row of the dense stage depends on the same row of the input only
  (`RowNormLinear.dense_of_row`), and the twenty bands cover the output array, which therefore ends holding the dense stage
  of the whole matrix (`KernelArray.output_array`). The two sides perform the same operations on the same numbers; the one
  law of arithmetic used is 0 + s = s, where a row sum is started from the float zero and where a product is summed into
  zeros, and it holds at every extended real. So no entry is asked to be finite and the precondition is never opened.

  THE SPARSE STAGE is the same 59 whole-array operations in both programs, applied to the dense stage's result, the edge
  list and the offsets: one function `RefStages.aggregate` of those three, never opened (`KernelRun.tail_of`,
  `RefRun.read_back`).

  So from memories agreeing on the six inputs both programs end at `aggregate e b (denseArray x γ β W)`
  (`algebraic`), and neither writes an input (the three frames). The kernel's idealization rewrote nothing
  (`preserves`).
-/
import proofs.«146687_j10763188043961_1_alg».proof.Defs
import proofs.«146687_j10763188043961_1_alg».proof.Proof.Gen.Kernel
import proofs.«146687_j10763188043961_1_alg».proof.Proof.Gen.Kernel.Skeleton
import proofs.«146687_j10763188043961_1_alg».proof.Proof.Gen.Kernel.Launch
import proofs.«146687_j10763188043961_1_alg».proof.Proof.Gen.Kernel.Points
import proofs.«146687_j10763188043961_1_alg».proof.Proof.Gen.Kernel.Frame
import proofs.«146687_j10763188043961_1_alg».proof.Proof.Gen.KernelIdeal
import proofs.«146687_j10763188043961_1_alg».proof.Proof.Gen.KernelIdeal.Skeleton
import proofs.«146687_j10763188043961_1_alg».proof.Proof.Gen.KernelIdeal.Launch
import proofs.«146687_j10763188043961_1_alg».proof.Proof.Gen.KernelIdeal.Points
import proofs.«146687_j10763188043961_1_alg».proof.Proof.Gen.KernelIdeal.Frame
import proofs.«146687_j10763188043961_1_alg».proof.Proof.Gen.ReferenceIdeal
import proofs.«146687_j10763188043961_1_alg».proof.Proof.Gen.Pre_finite_inputs
import proofs.«146687_j10763188043961_1_alg».proof.Proof.ReferenceRun
import proofs.«146687_j10763188043961_1_alg».proof.Proof.ReferenceDense
import proofs.«146687_j10763188043961_1_alg».proof.Proof.KernelRun
import Idealize.ShloMosaic.Adequacy
import Idealize.ShloMosaic.Init

noncomputable section

namespace Cert.Proof

open Idealize.ShloMosaic Idealize.SL.Sem

/-- The kernel as printed runs and leaves its inputs as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (RefRun.run m ρ)

/-- Reading the kernel on the extended reals rewrote no operation. -/
theorem preserves : Cert.preserves_Kernel_KernelIdeal := trivial

/-- From memories agreeing on the six inputs, both programs end at the sparse stage of the dense stage of the inputs. -/
theorem algebraic : Cert.algebraic_KernelIdeal_ReferenceIdeal := by
  intro m ρ m' ρ' _ hagree
  refine ⟨fun c => RefStages.aggregate (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (KernelArray.whole m c), KernelRun.run m ρ, ?_⟩
  refine (θ_run Cert.ReferenceIdeal.defs _ _).mono (fun _ h c => ⟨(h c).1.trans ?_, (h c).2⟩) (RefRun.run m' ρ')
  rw [(hagree c).1, (hagree c).2.1, (hagree c).2.2.1, (hagree c).2.2.2.1, (hagree c).2.2.2.2.1, (hagree c).2.2.2.2.2,
    ReferenceDense.dense_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
